-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S16x256 : Shape := ⟨2, ![16, 256]⟩
abbrev S16 : Shape := ⟨1, ![16]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x256 .f32) (main_arg8 : FVec F S16 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S16x256 .f32) (main_arg8 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S16x256 .f32) (main_arg8 : FVec F S16 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S16x256 : Shape := ⟨2, ![16, 256]⟩
abbrev S16 : Shape := ⟨1, ![16]⟩
abbrev S1x256 : Shape := ⟨2, ![1, 256]⟩
abbrev S1x16 : Shape := ⟨2, ![1, 16]⟩
abbrev S4x4096x16 : Shape := ⟨3, ![4, 4096, 16]⟩
abbrev S1x256x256 : Shape := ⟨3, ![1, 256, 256]⟩
abbrev S1x4096x256 : Shape := ⟨3, ![1, 4096, 256]⟩
abbrev S1x256x16 : Shape := ⟨3, ![1, 256, 16]⟩
abbrev S4096x256 : Shape := ⟨2, ![4096, 256]⟩
abbrev S256x4096 : Shape := ⟨2, ![256, 4096]⟩
abbrev S256x1 : Shape := ⟨2, ![256, 1]⟩
abbrev S256x16 : Shape := ⟨2, ![256, 16]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x256, .f32⟩
  | .hbm, ⟨8, _⟩ => ⟨S16, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x16, .f32⟩
  | .hbm, ⟨13, _⟩ => ⟨S4x4096x16, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S16x256, .f32⟩
  | .local _ .vmem, ⟨11, _⟩ => ⟨S1x16, .f32⟩
  | .local _ .vmem, ⟨12, _⟩ => ⟨S1x256x16, .f32⟩
  | .local _ .vmem, ⟨13, _⟩ => ⟨S1x256x16, .f32⟩
  | .local _ .vmem, ⟨14, _⟩ => ⟨S4096x256, .bf16⟩
  | .local _ .vmem, ⟨15, _⟩ => ⟨S4096x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S256_S1x256 : S256.ShapeCasts S1x256
  shapeCasts_S16_S1x16 : S16.ShapeCasts S1x16
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1x256_S256x256 : S1x256.Broadcasts S256x256
  reduces_S256x4096_S256 : S256x4096.Reduces [1] S256
  shapeCasts_S256_S256x1 : S256.ShapeCasts S256x1
  broadcasts_S256x1_S256x4096 : S256x1.Broadcasts S256x4096
  inb_S16x256_S16x256_0_0 : ∀ a, (![0, 0] : Fin 2 → Nat) a + S16x256.size a ≤ S16x256.size a
  h_S16x256 : 0 < S16x256.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S1x256x16 : S256x16.ShapeCasts S1x256x16
  dot_S4096x256_S256x256_S4096x256_1_1_0_0_n_n_wf : DotDims.WF S4096x256 S256x256 S4096x256 [1] [1] [0] [0] [] []
  dot_S256x256_S256x256_S256x256_1_1_0_0_n_n_wf : DotDims.WF S256x256 S256x256 S256x256 [1] [1] [0] [0] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  dot_S256x256_S16x256_S256x16_1_1_0_0_n_n_wf : DotDims.WF S256x256 S16x256 S256x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x4096x256.size a
  hwx0_0 : ∀ i : grid0.Coords, EltTy.bits .f32 = 32 ∨ (Rect.block (s := S4x4096x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .f32 = 32 ∨ (Rect.block (s := S4x4096x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x256.size a ≤ S16x256.size a
  hwx0_8 : ∀ i : grid0.Coords, EltTy.bits .f32 = 32 ∨ (Rect.block (s := S16x256) S16x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x16.size a ≤ S4x4096x16.size a
  hwx0_10 : ∀ i : grid0.Coords, EltTy.bits .f32 = 32 ∨ (Rect.block (s := S4x4096x16) S1x256x16.size (cc0_transform_10 i) (hinb0_10 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S16x256_S256x16_1_1_0_0_n_n : DotDims S256x256 S16x256 S256x16 where
  lhsContracting := [1]
  rhsContracting := [1]
  lhsNonContracting := [0]
  rhsNonContracting := [0]
  lhsBatch := []
  rhsBatch := []
  wf := dot_S256x256_S16x256_S256x16_1_1_0_0_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S16x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256x16.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S16x256 : Shape := ⟨2, ![16, 256]⟩
abbrev S16 : Shape := ⟨1, ![16]⟩
abbrev S1x1x256 : Shape := ⟨3, ![1, 1, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x4096x16 : Shape := ⟨3, ![4, 4096, 16]⟩
abbrev S1x1x16 : Shape := ⟨3, ![1, 1, 16]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x256, .f32⟩
  | .hbm, ⟨8, _⟩ => ⟨S16, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S1x1x256, .f32⟩
  | .hbm, ⟨19, _⟩ => ⟨S4x4096x256, .f32⟩
  | .hbm, ⟨20, _⟩ => ⟨S4x4096x256, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x256, .f32⟩
  | .hbm, ⟨43, _⟩ => ⟨S4x4096x16, .f32⟩
  | .hbm, ⟨44, _⟩ => ⟨S1x1x16, .f32⟩
  | .hbm, ⟨45, _⟩ => ⟨S4x4096x16, .f32⟩
  | .hbm, ⟨46, _⟩ => ⟨S4x4096x16, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S16_S1x1x16_2 : S16.BroadcastsInDim S1x1x16 (![2] : Fin 1 → Fin S1x1x16.rank)
  bcast_S1x1x16_S4x4096x16_0_1_2 : S1x1x16.BroadcastsInDim S4x4096x16 (![0, 1, 2] : Fin 3 → Fin S4x4096x16.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]
  dot_S4x4096x256_S16x256_S4x4096x16_2_1_01_0_n_n_wf : DotDims.WF S4x4096x256 S16x256 S4x4096x16 [2] [1] [0, 1] [0] [] []

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf
def dot_S4x4096x256_S16x256_S4x4096x16_2_1_01_0_n_n : DotDims S4x4096x256 S16x256 S4x4096x16 where
  lhsContracting := [2]
  rhsContracting := [1]
  lhsNonContracting := [0, 1]
  rhsNonContracting := [0]
  lhsBatch := []
  rhsBatch := []
  wf := dot_S4x4096x256_S16x256_S4x4096x16_2_1_01_0_n_n_wf

class Facts : Prop extends Facts₀ where

variable [Facts]
-- ==== Proof.KB_Base.lean ====
/-
  The launch side of the attention kernel's run, stated once for any float instance.

  @main reshapes the four bias vectors to rows and then enters the one kernel region, so the arrays the region finds
  are the launch contents with those four rows added (`V`). The region walks a 4 × 16 grid, the batch index outermost:
  point `t` is query tile `t % 16` of batch element `t / 16`. Eleven windows: the query tile of `x` (window 0) and the
  whole batch element of `x` (window 1) are two views of ONE array; the weights and the bias rows (windows 2–9) are
  constant blocks; window 10 is the output tile, written back at every point. An input window's staging buffer holds
  its block of the array at every point, whether the pipeline fetched it there or left it in place (`before0_W_of`).
  The body's one branch asks whether the point is the first query tile of its batch element: in closed form,
  `t % 16 = 0` (`hcond0_0`).
-/
import proofs.«167545_j61692910240526_1_alg».proof.Proof.Gen.Kernel.Launch
import proofs.«167545_j61692910240526_1_alg».proof.Proof.Gen.Kernel.Skeleton
import proofs.«167545_j61692910240526_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four reshapes of the bias vectors. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the line of reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, fetched there or not (the index has
    not moved since the last fetch), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every point, fetched there or not (the index has
    not moved since the last fetch), for any proof data whose array is the entry contents and whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every point, fetched there or not (the index has
    not moved since the last fetch), for any proof data whose array is the entry contents and whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the array at every point, fetched there or not (the index has
    not moved since the last fetch), for any proof data whose array is the entry contents and whose body leaves the
    block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block of the array at every point, fetched there or not (the index has
    not moved since the last fetch), for any proof data whose array is the entry contents and whose body leaves the
    block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block of the array at every point, fetched there or not (the index has
    not moved since the last fetch), for any proof data whose array is the entry contents and whose body leaves the
    block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block of the array at every point, fetched there or not (the index has
    not moved since the last fetch), for any proof data whose array is the entry contents and whose body leaves the
    block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block of the array at every point, fetched there or not (the index has
    not moved since the last fetch), for any proof data whose array is the entry contents and whose body leaves the
    block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block of the array at every point, fetched there or not (the index has
    not moved since the last fetch), for any proof data whose array is the entry contents and whose body leaves the
    block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block of the array at every point, fetched there or not (the index has
    not moved since the last fetch), for any proof data whose array is the entry contents and whose body leaves the
    block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: is the query-tile coordinate zero? -/
abbrev cond0_0 (i : grid0.Coords) : Prop := (Scalar.cmpi .ne (Scalar.extui (Scalar.cmpi .eq (BitVec.ofNat 32 (i 1).val) 0#32)) 0#32) = 1#1
/-- It holds exactly at the first query tile of each batch element. -/
theorem hcond0_0 : ∀ t : Fin cfg0.N, cond0_0 (grid0.coords t) ↔ t.val % 16 = 0 :=
  (by decide +kernel : ∀ t : Fin grid0.N, cond0_0 (grid0.coords t) ↔ t.val % 16 = 0)

/-- No window is ever idle. -/
theorem liveAt0 : ∀ (w : Fin cfg0.W) (t : Fin cfg0.N), cfg0.idle w (grid0.coords t) = false := by decide +kernel

/-! ## The memrefs the body is called with -/

abbrev ms0_0 (t : Fin cfg0.N) : Memref sig .tc .vmem S1x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x16 .f32 := win0_10.stage (cfg0.slots t 10)
abbrev hs0_10 (t : Fin cfg0.N) : (ms0_10 t).IsWhole := hstage0_10 ((cfg0.slots t 10).cast nbuf0_10)
/-- The two scratch buffers that cache one batch element's keys and values between points. -/
abbrev scM0_0 : Memref sig .tc .vmem S4096x256 .bf16 := Memref.whole cc0_scratch0
abbrev scM0_1 : Memref sig .tc .vmem S4096x256 .bf16 := Memref.whole cc0_scratch1
abbrev VS0_0 : View sig .tc .vmem S4096x256 .bf16 := scM0_0.view
abbrev VS0_1 : View sig .tc .vmem S4096x256 .bf16 := scM0_1.view
/-- One staging buffer of the output window, through which its contents are stated. -/
abbrev VO0_10 : View sig .tc .vmem S1x256x16 .f32 := (Memref.whole cc0_stg10_0 : Memref sig .tc .vmem S1x256x16 .f32).view

/-- The core's scoped buffers that are no staging buffer are the two scratch buffers, each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Hand

end
-- ==== Proof.KB_RunA.lean ====
/-
  The kernel body run once, at the first query tile of a batch element (the branch taken): on whole staging
  buffers — the ten inputs at their contents, the output tile and the two cache buffers at anything — it ends with
  the inputs as they were and with the output tile and both caches overwritten by the pieces its stores wrote.
  The piece lists are found by running the body symbolically; nothing of its arithmetic is transcribed.
-/
import proofs.«167545_j61692910240526_1_alg».proof.Proof.KB_Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) :
    Σ' (L10 : List (View.Piece (Elt F) S1x256x16 .f32)) (LS0 : List (View.Piece (Elt F) S4096x256 .bf16)), { LS1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    iexists _; iexact HS1

end Cert.Kernel.Hand

end
-- ==== Proof.KB_RunB.lean ====
/-
  The kernel body run once, at a later query tile of a batch element (the branch not taken): on whole staging
  buffers — the ten inputs at their contents, the output tile at anything, the two cache buffers at the contents the
  point before left — it ends with the inputs and both caches as they were and the output tile overwritten by the
  pieces its one store wrote. The piece list is found by running the body symbolically.
-/
import proofs.«167545_j61692910240526_1_alg».proof.Proof.KB_Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) :
    { L10 : List (View.Piece (Elt F) S1x256x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs0 ∗ owns (c : Thread nD τ) arg14 fullShare xs1) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    iexists _; isplitr; · ipureintro; exact harg14.read_unread _
    iexact HS1

end Cert.Kernel.Hand

end
-- ==== Proof.KB_Data.lean ====
/-
  The proof data of the attention kernel's pipeline, for any float instance.

  What the body leaves behind at a point is read off the runs: the output tile (and, at the first query tile of a
  batch element, the two caches) hold the pieces the run's stores wrote, which tile the whole buffer, so the contents
  are a function of the point's input blocks alone (`out0_A_10`, `sout0_A_0`, `sout0_A_1`), respectively of the input
  blocks and the caches as the point before left them (`out0_B_10`). `outsAt0` follows the caches through the grid:
  refilled where `t % 16 = 0`, handed on unchanged elsewhere. The region invariant before a point that is not the first
  is the two cache buffers at exactly those contents; before the first point they hold anything. Windows 0 and 1 read
  one array, so each holds half of it; every other input window holds its array whole.
-/
import proofs.«167545_j61692910240526_1_alg».proof.Proof.KB_RunA
import proofs.«167545_j61692910240526_1_alg».proof.Proof.KB_RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the first case stores into the output tile cover it. -/
theorem cover0_A_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (y : S1x256x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 S1x256x16.size (by sl_kernel_rfl) y
/-- What the first case leaves in the output tile: its pieces read back. -/
def out0_A_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) : Vec F S1x256x16 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1)
/-- The pieces the first case stores into the key cache cover it. -/
theorem scover0_A_0 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 S4096x256.size (by sl_kernel_rfl) y
/-- What the first case leaves in the key cache. -/
def sout0_A_0 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) : Vec F S4096x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1)
/-- The pieces the first case stores into the value cache cover it. -/
theorem scover0_A_1 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1 S4096x256.size (by sl_kernel_rfl) y
/-- What the first case leaves in the value cache. -/
def sout0_A_1 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) : Vec F S4096x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1)

/-- The pieces the second case stores into the output tile cover it. -/
theorem cover0_B_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) (y : S1x256x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1 S1x256x16.size (by sl_kernel_rfl) y
/-- What the second case leaves in the output tile. -/
def out0_B_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) : Vec F S1x256x16 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1)

/-! ## What the output tile and the caches hold after each point -/

/-- After the body at position `n`: the output tile, the key cache, the value cache. -/
def outsAt0 (c : Dev nD) : (n : ℕ) → n < cfg0.N → Vec F S1x256x16 .f32 × Vec F S4096x256 .bf16 × Vec F S4096x256 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 16 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, (outsAt0 c n (Nat.lt_of_succ_lt hn)).2.1, (outsAt0 c n (Nat.lt_of_succ_lt hn)).2.2)

/-- At the first query tile of a batch element: the first case's contents. -/
theorem outsAt0_A (c : Dev nD) (t : Fin cfg0.N) (h0 : t.val % 16 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- At a later query tile: the second case's output tile over the caches the point before left, and those caches. -/
theorem outsAt0_B (c : Dev nD) (t : Fin cfg0.N) (h0 : ¬t.val % 16 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant -/

/-- Before position `n`: at the first point the two caches at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body at point `t` each input's buffer at its block and the output
    tile at `outsAt0`; the invariant `PhiS`; windows 0 and 1 each hold half of the array they share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.Kernel.Hand

end
-- ==== Proof.KB_Body.lean ====
/-
  The body obligation of the attention kernel's pipeline, at every point, for any float instance.

  At a point the body is handed the invariant, that nothing is owed, and every window's current buffer: each input's at
  its block, the output tile's at anything. Whether the point is the first query tile of its batch element decides the
  case; the case's run applies; the caches go back into the invariant at the contents the run leaves (by the cover of
  the stores' pieces where it refilled them, unchanged where it did not), the inputs' buffers as they were, the output
  tile at its pieces read back.
-/
import proofs.«167545_j61692910240526_1_alg».proof.Proof.KB_Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  rw [show (dats m 0 c).leavesExact 4 t = owns (c : Thread nD τ) (ms0_4 t) fullShare ((dats m 0 c).after 4 t) from by
    unfold Dat.leavesExact; rw [liveAt0 4 t], after0_4]
  rw [show (dats m 0 c).leavesExact 5 t = owns (c : Thread nD τ) (ms0_5 t) fullShare ((dats m 0 c).after 5 t) from by
    unfold Dat.leavesExact; rw [liveAt0 5 t], after0_5]
  rw [show (dats m 0 c).leavesExact 6 t = owns (c : Thread nD τ) (ms0_6 t) fullShare ((dats m 0 c).after 6 t) from by
    unfold Dat.leavesExact; rw [liveAt0 6 t], after0_6]
  rw [show (dats m 0 c).leavesExact 7 t = owns (c : Thread nD τ) (ms0_7 t) fullShare ((dats m 0 c).after 7 t) from by
    unfold Dat.leavesExact; rw [liveAt0 7 t], after0_7]
  rw [show (dats m 0 c).leavesExact 8 t = owns (c : Thread nD τ) (ms0_8 t) fullShare ((dats m 0 c).after 8 t) from by
    unfold Dat.leavesExact; rw [liveAt0 8 t], after0_8]
  rw [show (dats m 0 c).leavesExact 9 t = owns (c : Thread nD τ) (ms0_9 t) fullShare ((dats m 0 c).after 9 t) from by
    unfold Dat.leavesExact; rw [liveAt0 9 t], after0_9]
  rw [show (dats m 0 c).leavesExact 10 t = owns (c : Thread nD τ) (ms0_10 t) fullShare ((dats m 0 c).after 10 t) from by
    unfold Dat.leavesExact; rw [liveAt0 10 t], after0_10]
  have hN : t.val < 64 := lt_of_lt_of_eq t.isLt (show cfg0.N = 64 from N_0)
  by_cases h0 : t.val % 16 = 0
  · rw [outsAt0_A m c t h0]
    unfold out0_A_10 sout0_A_0 sout0_A_1; (try dsimp only)
    by_cases hz : t.val = 0
    · rw [PhiS_castSucc m c t, PhiS_zero m c _ _ hz, scopedRest0_owns]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, ⟨%e10, H10⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
  · rw [outsAt0_B m c t h0]
    unfold out0_B_10; (try dsimp only)
    by_cases hz : t.val = 0
    · exfalso; omega
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, HS0, HS1⟩
      isplitl [HS0 HS1]
      · isplitl [HS0]
        · iexact HS0
        · iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KB_Split.lean ====
/-
  How the buffers behind the windows' arrays are dealt among the windows when the region is entered.

  Ten distinct buffers stand behind the eleven windows: the query-tile window and the whole-batch-element window both
  read the array of `x`. Held whole, that buffer splits into its left and right halves, one for each of the two
  windows; every other window takes the buffer behind it whole, at the contents the region finds.
-/
import proofs.«167545_j61692910240526_1_alg».proof.Proof.KB_Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays, each as a points-to of the buffer behind it at the window's share. -/
theorem arrays_as_buffers (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

theorem hsplit (c : Dev nD) :
    (Pipeline.arrBufs spec0 c (V m c) : sProp 𝕄) ⊢ (dats m 0 c).arrays ((dats m 0 c).arrAt · 0) := by
  rw [arrays_as_buffers]
  have hL : (Pipeline.arrBufs spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_v0) ↦{fullShare} V m c main_v0) ∗ (((c.tc : Thread nD τ).loc main_arg3) ↦{fullShare} V m c main_arg3) ∗ (((c.tc : Thread nD τ).loc main_v1) ↦{fullShare} V m c main_v1) ∗ (((c.tc : Thread nD τ).loc main_arg5) ↦{fullShare} V m c main_arg5) ∗ (((c.tc : Thread nD τ).loc main_v2) ↦{fullShare} V m c main_v2) ∗ (((c.tc : Thread nD τ).loc main_arg7) ↦{fullShare} V m c main_arg7) ∗ (((c.tc : Thread nD τ).loc main_v3) ↦{fullShare} V m c main_v3) ∗ (((c.tc : Thread nD τ).loc main_v4) ↦{fullShare} V m c main_v4)) :=
    bigSep_eq_bigSepL_of_eq [main_arg0, main_arg1, main_v0, main_arg3, main_v1, main_arg5, main_v2, main_arg7, main_v3, main_v4] (by decide) (by decide) _
  rw [hL, bigSep_W0]
  iintro ⟨H0, H1, H2, H3, H4, H5, H6, H7, H8, H9⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Hand

end
-- ==== Proof.LibSharedLaunch.lean ====
/-
  The frame run of a program with one pipelined kernel region whose INPUT windows may share an array.

  When every window of a pipeline stages its own array, the region is entered holding each array whole, and the
  launch theorem for that case asks for nothing more. When one array is handed to the kernel through several input
  windows, the full share of the buffer behind it has to be dealt among those windows, and how is the certificate's to
  say (`hsplit`: the distinct buffers behind the arrays, each whole at its entry contents, entail the proof data's
  arrays at their shares). Everything else is as in the case of distinct arrays, for a kernel that uses no semaphore
  of its own and never draws from the generator register: the region invariant is entered from the core's scoped
  buffers that are no staging buffer — the kernel's scratch — at some contents (`hin`), and gives them back after the
  last point (`hout`); the unscoped buffers that are no window's array bypass the region and are read back at the end.
  The conclusion is the frame run's post: every array of the pipeline at what the proof data compute for it after the
  last point, every bypassing buffer at its entry contents.
-/
import Idealize.ShloMosaic.Lib.Pipeline.Frame

noncomputable section

namespace Cert.SharedLaunch

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run with a tracking invariant, for windows that may share arrays: the layout facts apart from the
    arrays' distinctness, the body obligation at every point, nothing owed, @main up to the region (`hmain`, with the
    buffers' contents `V` there), the deal of the shared buffers among the windows (`hsplit`), and the invariant
    entered from the scratch at any contents and returning it. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj))
    (show (ownU _ : sProp 𝕄) ⊢ BI.own (emb₁ (initOf (cells cfgs hinj) (launchToks cfgs hinj))) from .rfl)
    V hmain hsplit
    (fun _ => iprop(emp)) (fun _ => iprop(emp))
    (fun c => unscopedRest (Ix := Unit) (Name := ℕ) (U := UR sig nD τ) (Lvl := ℕ) (cfgs p).spec c (V c))
    (fun c => by
      iintro H
      isplitr
      · iempintro
      iexact H)
    (fun c => (show iprop(emp ∗ (scopedRest (cfgs p).spec c : sProp 𝕄)) ⊢ (scopedRest (cfgs p).spec c : sProp 𝕄) from by
      iintro ⟨-, H⟩; iexact H).trans (hin c))
    (fun c => (hout c).trans (by
      iintro H
      isplitr
      · iempintro
      iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.SharedLaunch

end
-- ==== Proof.KB_Frame.lean ====
/-
  The run of the attention kernel's program and its frame, for any float instance.

  From any memory with zero counters every weakly fair execution of @main terminates; afterwards every array of the
  pipeline holds what the proof data compute for it — an input its entry contents, the result the tiles the body left,
  written back point by point — and every other unscoped buffer its entry contents. Read at the nine argument arrays
  this is the frame: none of them has changed.
-/
import proofs.«167545_j61692910240526_1_alg».proof.Proof.KB_Body
import proofs.«167545_j61692910240526_1_alg».proof.Proof.KB_Split
import proofs.«167545_j61692910240526_1_alg».proof.Proof.LibSharedLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch at any contents is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro ⟨HS0, HS1⟩
  isplitl [HS0]
  · iexists _; iexact HS0
  iexists _; iexact HS1

set_option backward.isDefEq.respectTransparency.types false in
/-- The run: every array of the pipeline at the proof data's value after the last point, every bypassing buffer at its
    entry contents. -/
theorem run_main : θ_run defs (onTc (τ := τ) (main (F := F))) (s₀ m ρ) (Pipeline.FramePost cfgs (dats m) 0 (V m)) :=
  Cert.SharedLaunch.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The run read at the result array and the nine arguments. -/
theorem run_result : θ_run defs (onTc (τ := τ) (main (F := F))) ⟨m, fun _ => 0, ρ⟩ (fun r => ∀ c : Dev nD,
      r.2.mem ((c.tc : Thread nD τ).loc main_v4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 10,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c)⟩) (run_main m ρ)

/-- The frame: the nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.Kernel.Hand

end
-- ==== Proof.KI_Base.lean ====
/-
  The launch side of the attention kernel's run, stated once for any float instance.

  @main reshapes the four bias vectors to rows and then enters the one kernel region, so the arrays the region finds
  are the launch contents with those four rows added (`V`). The region walks a 4 × 16 grid, the batch index outermost:
  point `t` is query tile `t % 16` of batch element `t / 16`. Eleven windows: the query tile of `x` (window 0) and the
  whole batch element of `x` (window 1) are two views of ONE array; the weights and the bias rows (windows 2–9) are
  constant blocks; window 10 is the output tile, written back at every point. An input window's staging buffer holds
  its block of the array at every point, whether the pipeline fetched it there or left it in place (`before0_W_of`).
  The body's one branch asks whether the point is the first query tile of its batch element: in closed form,
  `t % 16 = 0` (`hcond0_0`).
-/
import proofs.«167545_j61692910240526_1_alg».proof.Proof.Gen.KernelIdeal.Launch
import proofs.«167545_j61692910240526_1_alg».proof.Proof.Gen.KernelIdeal.Skeleton
import proofs.«167545_j61692910240526_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four reshapes of the bias vectors. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the line of reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, fetched there or not (the index has
    not moved since the last fetch), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every point, fetched there or not (the index has
    not moved since the last fetch), for any proof data whose array is the entry contents and whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every point, fetched there or not (the index has
    not moved since the last fetch), for any proof data whose array is the entry contents and whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the array at every point, fetched there or not (the index has
    not moved since the last fetch), for any proof data whose array is the entry contents and whose body leaves the
    block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block of the array at every point, fetched there or not (the index has
    not moved since the last fetch), for any proof data whose array is the entry contents and whose body leaves the
    block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block of the array at every point, fetched there or not (the index has
    not moved since the last fetch), for any proof data whose array is the entry contents and whose body leaves the
    block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block of the array at every point, fetched there or not (the index has
    not moved since the last fetch), for any proof data whose array is the entry contents and whose body leaves the
    block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block of the array at every point, fetched there or not (the index has
    not moved since the last fetch), for any proof data whose array is the entry contents and whose body leaves the
    block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block of the array at every point, fetched there or not (the index has
    not moved since the last fetch), for any proof data whose array is the entry contents and whose body leaves the
    block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block of the array at every point, fetched there or not (the index has
    not moved since the last fetch), for any proof data whose array is the entry contents and whose body leaves the
    block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: is the query-tile coordinate zero? -/
abbrev cond0_0 (i : grid0.Coords) : Prop := (Scalar.cmpi .ne (Scalar.extui (Scalar.cmpi .eq (BitVec.ofNat 32 (i 1).val) 0#32)) 0#32) = 1#1
/-- It holds exactly at the first query tile of each batch element. -/
theorem hcond0_0 : ∀ t : Fin cfg0.N, cond0_0 (grid0.coords t) ↔ t.val % 16 = 0 :=
  (by decide +kernel : ∀ t : Fin grid0.N, cond0_0 (grid0.coords t) ↔ t.val % 16 = 0)

/-- No window is ever idle. -/
theorem liveAt0 : ∀ (w : Fin cfg0.W) (t : Fin cfg0.N), cfg0.idle w (grid0.coords t) = false := by decide +kernel

/-! ## The memrefs the body is called with -/

abbrev ms0_0 (t : Fin cfg0.N) : Memref sig .tc .vmem S1x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x16 .f32 := win0_10.stage (cfg0.slots t 10)
abbrev hs0_10 (t : Fin cfg0.N) : (ms0_10 t).IsWhole := hstage0_10 ((cfg0.slots t 10).cast nbuf0_10)
/-- The two scratch buffers that cache one batch element's keys and values between points. -/
abbrev scM0_0 : Memref sig .tc .vmem S4096x256 .bf16 := Memref.whole cc0_scratch0
abbrev scM0_1 : Memref sig .tc .vmem S4096x256 .bf16 := Memref.whole cc0_scratch1
abbrev VS0_0 : View sig .tc .vmem S4096x256 .bf16 := scM0_0.view
abbrev VS0_1 : View sig .tc .vmem S4096x256 .bf16 := scM0_1.view
/-- One staging buffer of the output window, through which its contents are stated. -/
abbrev VO0_10 : View sig .tc .vmem S1x256x16 .f32 := (Memref.whole cc0_stg10_0 : Memref sig .tc .vmem S1x256x16 .f32).view

/-- The core's scoped buffers that are no staging buffer are the two scratch buffers, each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Hand

end
-- ==== Proof.KI_RunA.lean ====
/-
  The kernel body run once, at the first query tile of a batch element (the branch taken): on whole staging
  buffers — the ten inputs at their contents, the output tile and the two cache buffers at anything — it ends with
  the inputs as they were and with the output tile and both caches overwritten by the pieces its stores wrote.
  The piece lists are found by running the body symbolically; nothing of its arithmetic is transcribed.
-/
import proofs.«167545_j61692910240526_1_alg».proof.Proof.KI_Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) :
    Σ' (L10 : List (View.Piece (Elt F) S1x256x16 .f32)) (LS0 : List (View.Piece (Elt F) S4096x256 .bf16)), { LS1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    iexists _; iexact HS1

end Cert.KernelIdeal.Hand

end
-- ==== Proof.KI_RunB.lean ====
/-
  The kernel body run once, at a later query tile of a batch element (the branch not taken): on whole staging
  buffers — the ten inputs at their contents, the output tile at anything, the two cache buffers at the contents the
  point before left — it ends with the inputs and both caches as they were and the output tile overwritten by the
  pieces its one store wrote. The piece list is found by running the body symbolically.
-/
import proofs.«167545_j61692910240526_1_alg».proof.Proof.KI_Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) :
    { L10 : List (View.Piece (Elt F) S1x256x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs0 ∗ owns (c : Thread nD τ) arg14 fullShare xs1) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    iexists _; isplitr; · ipureintro; exact harg14.read_unread _
    iexact HS1

end Cert.KernelIdeal.Hand

end
-- ==== Proof.KI_Data.lean ====
/-
  The proof data of the attention kernel's pipeline, for any float instance.

  What the body leaves behind at a point is read off the runs: the output tile (and, at the first query tile of a
  batch element, the two caches) hold the pieces the run's stores wrote, which tile the whole buffer, so the contents
  are a function of the point's input blocks alone (`out0_A_10`, `sout0_A_0`, `sout0_A_1`), respectively of the input
  blocks and the caches as the point before left them (`out0_B_10`). `outsAt0` follows the caches through the grid:
  refilled where `t % 16 = 0`, handed on unchanged elsewhere. The region invariant before a point that is not the first
  is the two cache buffers at exactly those contents; before the first point they hold anything. Windows 0 and 1 read
  one array, so each holds half of it; every other input window holds its array whole.
-/
import proofs.«167545_j61692910240526_1_alg».proof.Proof.KI_RunA
import proofs.«167545_j61692910240526_1_alg».proof.Proof.KI_RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the first case stores into the output tile cover it. -/
theorem cover0_A_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (y : S1x256x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 S1x256x16.size (by sl_kernel_rfl) y
/-- What the first case leaves in the output tile: its pieces read back. -/
def out0_A_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) : Vec F S1x256x16 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1)
/-- The pieces the first case stores into the key cache cover it. -/
theorem scover0_A_0 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 S4096x256.size (by sl_kernel_rfl) y
/-- What the first case leaves in the key cache. -/
def sout0_A_0 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) : Vec F S4096x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1)
/-- The pieces the first case stores into the value cache cover it. -/
theorem scover0_A_1 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1 S4096x256.size (by sl_kernel_rfl) y
/-- What the first case leaves in the value cache. -/
def sout0_A_1 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) : Vec F S4096x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1)

/-- The pieces the second case stores into the output tile cover it. -/
theorem cover0_B_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) (y : S1x256x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1 S1x256x16.size (by sl_kernel_rfl) y
/-- What the second case leaves in the output tile. -/
def out0_B_10 (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i)
    (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) : Vec F S1x256x16 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1)

/-! ## What the output tile and the caches hold after each point -/

/-- After the body at position `n`: the output tile, the key cache, the value cache. -/
def outsAt0 (c : Dev nD) : (n : ℕ) → n < cfg0.N → Vec F S1x256x16 .f32 × Vec F S4096x256 .bf16 × Vec F S4096x256 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 16 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, (outsAt0 c n (Nat.lt_of_succ_lt hn)).2.1, (outsAt0 c n (Nat.lt_of_succ_lt hn)).2.2)

/-- At the first query tile of a batch element: the first case's contents. -/
theorem outsAt0_A (c : Dev nD) (t : Fin cfg0.N) (h0 : t.val % 16 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- At a later query tile: the second case's output tile over the caches the point before left, and those caches. -/
theorem outsAt0_B (c : Dev nD) (t : Fin cfg0.N) (h0 : ¬t.val % 16 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant -/

/-- Before position `n`: at the first point the two caches at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body at point `t` each input's buffer at its block and the output
    tile at `outsAt0`; the invariant `PhiS`; windows 0 and 1 each hold half of the array they share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.KernelIdeal.Hand

end
-- ==== Proof.KI_Body.lean ====
/-
  The body obligation of the attention kernel's pipeline, at every point, for any float instance.

  At a point the body is handed the invariant, that nothing is owed, and every window's current buffer: each input's at
  its block, the output tile's at anything. Whether the point is the first query tile of its batch element decides the
  case; the case's run applies; the caches go back into the invariant at the contents the run leaves (by the cover of
  the stores' pieces where it refilled them, unchanged where it did not), the inputs' buffers as they were, the output
  tile at its pieces read back.
-/
import proofs.«167545_j61692910240526_1_alg».proof.Proof.KI_Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  rw [show (dats m 0 c).leavesExact 4 t = owns (c : Thread nD τ) (ms0_4 t) fullShare ((dats m 0 c).after 4 t) from by
    unfold Dat.leavesExact; rw [liveAt0 4 t], after0_4]
  rw [show (dats m 0 c).leavesExact 5 t = owns (c : Thread nD τ) (ms0_5 t) fullShare ((dats m 0 c).after 5 t) from by
    unfold Dat.leavesExact; rw [liveAt0 5 t], after0_5]
  rw [show (dats m 0 c).leavesExact 6 t = owns (c : Thread nD τ) (ms0_6 t) fullShare ((dats m 0 c).after 6 t) from by
    unfold Dat.leavesExact; rw [liveAt0 6 t], after0_6]
  rw [show (dats m 0 c).leavesExact 7 t = owns (c : Thread nD τ) (ms0_7 t) fullShare ((dats m 0 c).after 7 t) from by
    unfold Dat.leavesExact; rw [liveAt0 7 t], after0_7]
  rw [show (dats m 0 c).leavesExact 8 t = owns (c : Thread nD τ) (ms0_8 t) fullShare ((dats m 0 c).after 8 t) from by
    unfold Dat.leavesExact; rw [liveAt0 8 t], after0_8]
  rw [show (dats m 0 c).leavesExact 9 t = owns (c : Thread nD τ) (ms0_9 t) fullShare ((dats m 0 c).after 9 t) from by
    unfold Dat.leavesExact; rw [liveAt0 9 t], after0_9]
  rw [show (dats m 0 c).leavesExact 10 t = owns (c : Thread nD τ) (ms0_10 t) fullShare ((dats m 0 c).after 10 t) from by
    unfold Dat.leavesExact; rw [liveAt0 10 t], after0_10]
  have hN : t.val < 64 := lt_of_lt_of_eq t.isLt (show cfg0.N = 64 from N_0)
  by_cases h0 : t.val % 16 = 0
  · rw [outsAt0_A m c t h0]
    unfold out0_A_10 sout0_A_0 sout0_A_1; (try dsimp only)
    by_cases hz : t.val = 0
    · rw [PhiS_castSucc m c t, PhiS_zero m c _ _ hz, scopedRest0_owns]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, ⟨%e10, H10⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
  · rw [outsAt0_B m c t h0]
    unfold out0_B_10; (try dsimp only)
    by_cases hz : t.val = 0
    · exfalso; omega
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, HS0, HS1⟩
      isplitl [HS0 HS1]
      · isplitl [HS0]
        · iexact HS0
        · iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI_Split.lean ====
/-
  How the buffers behind the windows' arrays are dealt among the windows when the region is entered.

  Ten distinct buffers stand behind the eleven windows: the query-tile window and the whole-batch-element window both
  read the array of `x`. Held whole, that buffer splits into its left and right halves, one for each of the two
  windows; every other window takes the buffer behind it whole, at the contents the region finds.
-/
import proofs.«167545_j61692910240526_1_alg».proof.Proof.KI_Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays, each as a points-to of the buffer behind it at the window's share. -/
theorem arrays_as_buffers (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

theorem hsplit (c : Dev nD) :
    (Pipeline.arrBufs spec0 c (V m c) : sProp 𝕄) ⊢ (dats m 0 c).arrays ((dats m 0 c).arrAt · 0) := by
  rw [arrays_as_buffers]
  have hL : (Pipeline.arrBufs spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_v0) ↦{fullShare} V m c main_v0) ∗ (((c.tc : Thread nD τ).loc main_arg3) ↦{fullShare} V m c main_arg3) ∗ (((c.tc : Thread nD τ).loc main_v1) ↦{fullShare} V m c main_v1) ∗ (((c.tc : Thread nD τ).loc main_arg5) ↦{fullShare} V m c main_arg5) ∗ (((c.tc : Thread nD τ).loc main_v2) ↦{fullShare} V m c main_v2) ∗ (((c.tc : Thread nD τ).loc main_arg7) ↦{fullShare} V m c main_arg7) ∗ (((c.tc : Thread nD τ).loc main_v3) ↦{fullShare} V m c main_v3) ∗ (((c.tc : Thread nD τ).loc main_v4) ↦{fullShare} V m c main_v4)) :=
    bigSep_eq_bigSepL_of_eq [main_arg0, main_arg1, main_v0, main_arg3, main_v1, main_arg5, main_v2, main_arg7, main_v3, main_v4] (by decide) (by decide) _
  rw [hL, bigSep_W0]
  iintro ⟨H0, H1, H2, H3, H4, H5, H6, H7, H8, H9⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.KI_Frame.lean ====
/-
  The run of the attention kernel's program and its frame, for any float instance.

  From any memory with zero counters every weakly fair execution of @main terminates; afterwards every array of the
  pipeline holds what the proof data compute for it — an input its entry contents, the result the tiles the body left,
  written back point by point — and every other unscoped buffer its entry contents. Read at the nine argument arrays
  this is the frame: none of them has changed.
-/
import proofs.«167545_j61692910240526_1_alg».proof.Proof.KI_Body
import proofs.«167545_j61692910240526_1_alg».proof.Proof.KI_Split
import proofs.«167545_j61692910240526_1_alg».proof.Proof.LibSharedLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch at any contents is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro ⟨HS0, HS1⟩
  isplitl [HS0]
  · iexists _; iexact HS0
  iexists _; iexact HS1

set_option backward.isDefEq.respectTransparency.types false in
/-- The run: every array of the pipeline at the proof data's value after the last point, every bypassing buffer at its
    entry contents. -/
theorem run_main : θ_run defs (onTc (τ := τ) (main (F := F))) (s₀ m ρ) (Pipeline.FramePost cfgs (dats m) 0 (V m)) :=
  Cert.SharedLaunch.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The run read at the result array and the nine arguments. -/
theorem run_result : θ_run defs (onTc (τ := τ) (main (F := F))) ⟨m, fun _ => 0, ρ⟩ (fun r => ∀ c : Dev nD,
      r.2.mem ((c.tc : Thread nD τ).loc main_v4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 10,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c)⟩) (run_main m ρ)

/-- The frame: the nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.KernelIdeal.Hand

end
-- ==== Proof.KI_Pieces.lean ====
/-
  What each case of the attention body leaves, as values of its inputs.

  At the first query tile of a batch element the body writes the whole key cache and the whole value cache, each by
  one store covering the buffer, then reads both back whole, and writes the whole output tile by one store; at a later
  query tile it reads the caches as the point before left them and writes the output tile the same way. A buffer
  overwritten by one covering store holds that store's value; a whole buffer read back is its contents; and a whole
  buffer read after one covering store is the stored value. So the caches hold the key layer and the value layer of
  the batch element's rows, and the output tile holds the output projection of the attention of the query rows over
  the caches: the freshly stored ones in the first case, the carried ones in the second.
-/
import proofs.«167545_j61692910240526_1_alg».proof.Proof.KI_Data
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-buffer access. -/
theorem zeros2 : (![0, 0] : Fin 2 → Nat) = fun _ => 0 := funext fun a => by fin_cases a <;> rfl
/-- The zero offsets of a rank-3 whole-buffer access. -/
theorem zeros3 : (![0, 0, 0] : Fin 3 → Nat) = fun _ => 0 := funext fun a => by fin_cases a <;> rfl

/-- The first case leaves in the key cache the key layer of the batch element's rows. -/
theorem sout0_A_0_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i) (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay3 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S4096x256) zeros2]
  simp only [View.readAt_eq_ld, harg3.read_unread, harg6.read_unread, harg7.read_unread,
    View.ld_unit_zero (S := S1x4096x256) zeros3, View.ld_unit_zero (S := S256x256) zeros2, View.ld_unit_zero (S := S1x256) zeros2]

/-- The first case leaves in the value cache the value layer of the batch element's rows. -/
theorem sout0_A_1_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i) (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay4 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S4096x256) zeros2]
  simp only [View.readAt_eq_ld, harg3.read_unread, harg8.read_unread, harg9.read_unread,
    View.ld_unit_zero (S := S1x4096x256) zeros3, View.ld_unit_zero (S := S256x256) zeros2, View.ld_unit_zero (S := S1x256) zeros2]

/-- The first case leaves in the output tile the attention of the query rows over the caches it has just stored. -/
theorem out0_A_10_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : cond0_0 i) (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay1 (k0_pay5 x0 x2 x3 (k0_pay3 x1 x4 x5) (k0_pay4 x1 x6 x7)) (k0_pay6 x8) x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S1x256x16) zeros3]
  rw [View.readCov_unit_zero (S := S4096x256) arg13.view zeros2, View.readCov_unit_zero (S := S4096x256) arg14.view zeros2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1x256x256) zeros3, View.ld_unit_zero (S := S1x4096x256) zeros3, View.ld_unit_zero (S := S256x256) zeros2,
    View.ld_unit_zero (S := S1x256) zeros2, View.ld_unit_zero (S := S16x256) zeros2, View.ld_unit_zero (S := S1x16) zeros2]

/-- The second case leaves in the output tile the attention of the query rows over the carried caches. -/
theorem out0_B_10_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S16x256 .f32) (harg10 : arg10.IsWhole) (arg11 : Memref sig .tc .vmem S1x16 .f32) (harg11 : arg11.IsWhole) (arg12 : Memref sig .tc .vmem S1x256x16 .f32) (harg12 : arg12.IsWhole) (arg13 : Memref sig .tc .vmem S4096x256 .bf16) (harg13 : arg13.IsWhole) (arg14 : Memref sig .tc .vmem S4096x256 .bf16) (harg14 : arg14.IsWhole) (hc0 : ¬cond0_0 i) (x0 : Vec F S1x256x256 .f32) (x1 : Vec F S1x4096x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S16x256 .f32) (x9 : Vec F S1x16 .f32) (xs0 xs1 : Vec F S4096x256 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = k0_pay1 (k0_pay5 x0 x2 x3 xs0 xs1) (k0_pay6 x8) x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero (S := S1x256x16) zeros3]
  simp only [View.readAt_eq_ld, harg2.read_unread, harg4.read_unread, harg5.read_unread, harg10.read_unread,
    harg11.read_unread, harg13.read_unread, harg14.read_unread,
    View.ld_unit_zero (S := S1x256x256) zeros3, View.ld_unit_zero (S := S256x256) zeros2, View.ld_unit_zero (S := S1x256) zeros2,
    View.ld_unit_zero (S := S4096x256) zeros2, View.ld_unit_zero (S := S16x256) zeros2, View.ld_unit_zero (S := S1x16) zeros2]

end Cert.KernelIdeal.Hand

end
-- ==== Proof.KI_Blocks.lean ====
/-
  Each window's block of the attention kernel, read at an entry, as the argument array at the corresponding entry.

  The region walks a 4 × 16 grid, the batch index outermost: point `t` is query tile `t % 16` of batch element
  `t / 16`. A block's coordinate on an axis is the block index on that axis times the block's extent plus the
  coordinate inside the block. The query tile (window 0) is rows `t % 16 · 256 + r` of batch element `t / 16`; the
  key/value view (window 1) is the whole batch element; the weights (windows 2, 4, 6, 8) are their whole arrays; the bias
  rows (windows 3, 5, 7, 9) are the bias vectors reshaped to one row before the region; the output tile (window 10)
  sits where the query tile does.
-/
import proofs.«167545_j61692910240526_1_alg».proof.Proof.KI_Base
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The grid's points and the windows' block indices -/

/-- The batch element of a point is below 4. -/
theorem hb (t : Fin cfg0.N) : t.val / 16 < 4 := by
  have hN : t.val < 64 := lt_of_lt_of_eq t.isLt N_0
  omega

/-- A row of a point's query tile is a row of the array. -/
theorem hs (t : Fin cfg0.N) (r : Fin 256) : t.val % 16 * 256 + r.val < 4096 := by
  have hr : r.val < 256 := r.isLt
  omega

/-- The printed index maps, decided once over the grid: the query tile and the output tile sit at
    (batch element, tile, 0), the key/value view at (batch element, 0, 0), every other window at its one block. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_10.index t (0 : Fin 3) = t.val / 16 ∧ win0_10.index t (1 : Fin 3) = t.val % 16 ∧ win0_10.index t (2 : Fin 3) = 0 :=
  (by decide +kernel : ∀ t : Fin grid0.N, _)

/-- The constant windows' one block is block (0, 0). -/
theorem idx_const : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## The two views of the input array -/

/-- The query tile at (0, r, e): row `t % 16 · 256 + r` of batch element `t / 16`. -/
theorem iblk0_apply (c : Dev nD) (t : Fin cfg0.N) (r : Fin 256) (e : Fin 256) :
    (iblk m c 0 t : Vec F S1x256x256 .f32) (ix3 (0 : Fin 1) r e)
      = m ((c : Thread nD τ).loc main_arg0) (ix3 (⟨t.val / 16, hb t⟩ : Fin 4) (⟨t.val % 16 * 256 + r.val, hs t r⟩ : Fin 4096) e) := by
  show V m c main_arg0 (((cfg0.win 0).blk t).view.emb (ix3 (0 : Fin 1) r e)) = _
  rw [V_main_arg0]
  refine congrArg _ ?_
  obtain ⟨e0, e1, e2, -⟩ := idx_facts t
  funext a; apply Fin.ext
  match a with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 256 + 1 * e.val = e.val; omega

/-- The key/value view at (0, k, e): row `k` of batch element `t / 16`. -/
theorem iblk1_apply (c : Dev nD) (t : Fin cfg0.N) (k : Fin 4096) (e : Fin 256) :
    (iblk m c 1 t : Vec F S1x4096x256 .f32) (ix3 (0 : Fin 1) k e)
      = m ((c : Thread nD τ).loc main_arg0) (ix3 (⟨t.val / 16, hb t⟩ : Fin 4) k e) := by
  show V m c main_arg0 (((cfg0.win 1).blk t).view.emb (ix3 (0 : Fin 1) k e)) = _
  rw [V_main_arg0]
  refine congrArg _ ?_
  obtain ⟨-, -, -, e0, e1, e2, -⟩ := idx_facts t
  funext a; apply Fin.ext
  match a with
  | ⟨0, _⟩ => show win0_1.index t (0 : Fin 3) * 1 + 1 * 0 = t.val / 16; omega
  | ⟨1, _⟩ => show win0_1.index t (1 : Fin 3) * 4096 + 1 * k.val = k.val; omega
  | ⟨2, _⟩ => show win0_1.index t (2 : Fin 3) * 256 + 1 * e.val = e.val; omega

/-! ## The weights: each window's one block is its whole array -/

theorem iblk2_apply (c : Dev nD) (t : Fin cfg0.N) (o e : Fin 256) :
    (iblk m c 2 t : Vec F S256x256 .f32) (ix2 o e) = m ((c : Thread nD τ).loc main_arg1) (ix2 o e) := by
  show V m c main_arg1 (((cfg0.win 2).blk t).view.emb (ix2 o e)) = _
  rw [V_main_arg1]
  refine congrArg _ ?_
  obtain ⟨e0, e1, -⟩ := idx_const t
  funext a; apply Fin.ext
  match a with
  | ⟨0, _⟩ => show win0_2.index t (0 : Fin 2) * 256 + 1 * o.val = o.val; omega
  | ⟨1, _⟩ => show win0_2.index t (1 : Fin 2) * 256 + 1 * e.val = e.val; omega

theorem iblk4_apply (c : Dev nD) (t : Fin cfg0.N) (o e : Fin 256) :
    (iblk m c 4 t : Vec F S256x256 .f32) (ix2 o e) = m ((c : Thread nD τ).loc main_arg3) (ix2 o e) := by
  show V m c main_arg3 (((cfg0.win 4).blk t).view.emb (ix2 o e)) = _
  rw [V_main_arg3]
  refine congrArg _ ?_
  obtain ⟨-, -, -, -, e0, e1, -⟩ := idx_const t
  funext a; apply Fin.ext
  match a with
  | ⟨0, _⟩ => show win0_4.index t (0 : Fin 2) * 256 + 1 * o.val = o.val; omega
  | ⟨1, _⟩ => show win0_4.index t (1 : Fin 2) * 256 + 1 * e.val = e.val; omega

theorem iblk6_apply (c : Dev nD) (t : Fin cfg0.N) (o e : Fin 256) :
    (iblk m c 6 t : Vec F S256x256 .f32) (ix2 o e) = m ((c : Thread nD τ).loc main_arg5) (ix2 o e) := by
  show V m c main_arg5 (((cfg0.win 6).blk t).view.emb (ix2 o e)) = _
  rw [V_main_arg5]
  refine congrArg _ ?_
  obtain ⟨-, -, -, -, -, -, -, -, e0, e1, -⟩ := idx_const t
  funext a; apply Fin.ext
  match a with
  | ⟨0, _⟩ => show win0_6.index t (0 : Fin 2) * 256 + 1 * o.val = o.val; omega
  | ⟨1, _⟩ => show win0_6.index t (1 : Fin 2) * 256 + 1 * e.val = e.val; omega

theorem iblk8_apply (c : Dev nD) (t : Fin cfg0.N) (o : Fin 16) (e : Fin 256) :
    (iblk m c 8 t : Vec F S16x256 .f32) (ix2 o e) = m ((c : Thread nD τ).loc main_arg7) (ix2 o e) := by
  show V m c main_arg7 (((cfg0.win 8).blk t).view.emb (ix2 o e)) = _
  rw [V_main_arg7]
  refine congrArg _ ?_
  obtain ⟨-, -, -, -, -, -, -, -, -, -, -, -, e0, e1, -⟩ := idx_const t
  funext a; apply Fin.ext
  match a with
  | ⟨0, _⟩ => show win0_8.index t (0 : Fin 2) * 16 + 1 * o.val = o.val; omega
  | ⟨1, _⟩ => show win0_8.index t (1 : Fin 2) * 256 + 1 * e.val = e.val; omega

/-! ## The bias rows: each bias vector, reshaped to one row before the region -/

/-- The four rows the region finds are the reshapes of the four bias vectors. -/
theorem V_main_v0 (c : Dev nD) :
    (V m c main_v0 : S1x256.Idx → Elt F .f32) = shapeCast S1x256 (m ((c : Thread nD τ).loc main_arg2)) shapeCasts_S256_S1x256 := by
  dsimp only [V, hostOps0]; after_results; rfl
theorem V_main_v1 (c : Dev nD) :
    (V m c main_v1 : S1x256.Idx → Elt F .f32) = shapeCast S1x256 (m ((c : Thread nD τ).loc main_arg4)) shapeCasts_S256_S1x256 := by
  dsimp only [V, hostOps0]; after_results; rfl
theorem V_main_v2 (c : Dev nD) :
    (V m c main_v2 : S1x256.Idx → Elt F .f32) = shapeCast S1x256 (m ((c : Thread nD τ).loc main_arg6)) shapeCasts_S256_S1x256 := by
  dsimp only [V, hostOps0]; after_results; rfl
theorem V_main_v3 (c : Dev nD) :
    (V m c main_v3 : S1x16.Idx → Elt F .f32) = shapeCast S1x16 (m ((c : Thread nD τ).loc main_arg8)) shapeCasts_S16_S1x16 := by
  dsimp only [V, hostOps0]; after_results; rfl

theorem iblk3_apply (c : Dev nD) (t : Fin cfg0.N) (o : Fin 256) :
    (iblk m c 3 t : Vec F S1x256 .f32) (ix2 (0 : Fin 1) o) = m ((c : Thread nD τ).loc main_arg2) (ix1 o) := by
  show (V m c main_v0 : S1x256.Idx → Elt F .f32) (((cfg0.win 3).blk t).view.emb (ix2 (0 : Fin 1) o)) = _
  rw [V_main_v0]
  have he : ((cfg0.win 3).blk t).view.emb (ix2 (0 : Fin 1) o) = ix2 (0 : Fin 1) o := by
    obtain ⟨-, -, e0, e1, -⟩ := idx_const t
    funext a; apply Fin.ext
    match a with
    | ⟨0, _⟩ => show win0_3.index t (0 : Fin 2) * 1 + 1 * 0 = 0; omega
    | ⟨1, _⟩ => show win0_3.index t (1 : Fin 2) * 256 + 1 * o.val = o.val; omega
  rw [he]
  exact shapeCast_a_1a_apply _ _ 0 o

theorem iblk5_apply (c : Dev nD) (t : Fin cfg0.N) (o : Fin 256) :
    (iblk m c 5 t : Vec F S1x256 .f32) (ix2 (0 : Fin 1) o) = m ((c : Thread nD τ).loc main_arg4) (ix1 o) := by
  show (V m c main_v1 : S1x256.Idx → Elt F .f32) (((cfg0.win 5).blk t).view.emb (ix2 (0 : Fin 1) o)) = _
  rw [V_main_v1]
  have he : ((cfg0.win 5).blk t).view.emb (ix2 (0 : Fin 1) o) = ix2 (0 : Fin 1) o := by
    obtain ⟨-, -, -, -, -, -, e0, e1, -⟩ := idx_const t
    funext a; apply Fin.ext
    match a with
    | ⟨0, _⟩ => show win0_5.index t (0 : Fin 2) * 1 + 1 * 0 = 0; omega
    | ⟨1, _⟩ => show win0_5.index t (1 : Fin 2) * 256 + 1 * o.val = o.val; omega
  rw [he]
  exact shapeCast_a_1a_apply _ _ 0 o

theorem iblk7_apply (c : Dev nD) (t : Fin cfg0.N) (o : Fin 256) :
    (iblk m c 7 t : Vec F S1x256 .f32) (ix2 (0 : Fin 1) o) = m ((c : Thread nD τ).loc main_arg6) (ix1 o) := by
  show (V m c main_v2 : S1x256.Idx → Elt F .f32) (((cfg0.win 7).blk t).view.emb (ix2 (0 : Fin 1) o)) = _
  rw [V_main_v2]
  have he : ((cfg0.win 7).blk t).view.emb (ix2 (0 : Fin 1) o) = ix2 (0 : Fin 1) o := by
    obtain ⟨-, -, -, -, -, -, -, -, -, -, e0, e1, -⟩ := idx_const t
    funext a; apply Fin.ext
    match a with
    | ⟨0, _⟩ => show win0_7.index t (0 : Fin 2) * 1 + 1 * 0 = 0; omega
    | ⟨1, _⟩ => show win0_7.index t (1 : Fin 2) * 256 + 1 * o.val = o.val; omega
  rw [he]
  exact shapeCast_a_1a_apply _ _ 0 o

theorem iblk9_apply (c : Dev nD) (t : Fin cfg0.N) (o : Fin 16) :
    (iblk m c 9 t : Vec F S1x16 .f32) (ix2 (0 : Fin 1) o) = m ((c : Thread nD τ).loc main_arg8) (ix1 o) := by
  show (V m c main_v3 : S1x16.Idx → Elt F .f32) (((cfg0.win 9).blk t).view.emb (ix2 (0 : Fin 1) o)) = _
  rw [V_main_v3]
  have he : ((cfg0.win 9).blk t).view.emb (ix2 (0 : Fin 1) o) = ix2 (0 : Fin 1) o := by
    obtain ⟨-, -, -, -, -, -, -, -, -, -, -, -, -, -, e0, e1⟩ := idx_const t
    funext a; apply Fin.ext
    match a with
    | ⟨0, _⟩ => show win0_9.index t (0 : Fin 2) * 1 + 1 * 0 = 0; omega
    | ⟨1, _⟩ => show win0_9.index t (1 : Fin 2) * 16 + 1 * o.val = o.val; omega
  rw [he]
  exact shapeCast_a_1a_apply _ _ 0 o

/-! ## The output tile -/

/-- Entry (0, r, o) of point `t`'s output tile is entry (t / 16, t % 16 · 256 + r, o) of the output array. -/
theorem oblk_emb (t : Fin cfg0.N) (r : Fin 256) (o : Fin 16) :
    ((cfg0.win 10).blk t).view.emb (ix3 (0 : Fin 1) r o)
      = ix3 (⟨t.val / 16, hb t⟩ : Fin 4) (⟨t.val % 16 * 256 + r.val, hs t r⟩ : Fin 4096) o := by
  obtain ⟨-, -, -, -, -, -, e0, e1, e2⟩ := idx_facts t
  funext a; apply Fin.ext
  match a with
  | ⟨0, _⟩ => show win0_10.index t (0 : Fin 3) * 1 + 1 * 0 = t.val / 16; omega
  | ⟨1, _⟩ => show win0_10.index t (1 : Fin 3) * 256 + 1 * r.val = t.val % 16 * 256 + r.val; omega
  | ⟨2, _⟩ => show win0_10.index t (2 : Fin 3) * 16 + 1 * o.val = o.val; omega

end Cert.KernelIdeal.Hand

end
-- ==== Proof.AttnSpec.lean ====
/-
  Single-head scaled dot-product attention followed by an output projection, on the extended reals, one query row
  at a time.

  For one batch element with rows `X k` (k < S), a query row `x` is projected to `q = x·Wqᵀ + bq`; every row is
  projected to a key `X k·Wkᵀ + bk` and a value `X k·Wvᵀ + bv`. The score of the query against key `k` is the inner
  product of `q` with that key times the scaling word; the attention weight of `k` is `exp (score k − max score)`
  divided by the sum of those exponentials over all keys, times the scaling word again; the mixed row is the
  weight-weighted sum of the values; and the result is the mixed row projected by `Wo` plus `bo`.
  The maximum over the keys is the fold of `max` from the word for −∞, which is how both a lane reduction and a
  host reduction read at an entry.
-/
import Idealize.ShloMosaic.PureOps.Ideal

noncomputable section

open scoped BigOperators

namespace Cert.AttnSpec

open Idealize.ShloMosaic

/-- The scaling word 0.0625 = 256^(−1/2), as the extended real its pattern denotes. -/
def scale : EReal := Ideal.ofBits .f32 0x3D800000#32

/-- The word for −∞, from which the maximum over the keys is folded. -/
def negInf : EReal := Ideal.ofBits .f32 0xFF800000#32

/-- A linear layer on one row `h`: entry `j` is `∑ e, h e · W j e + b j` (the weight matrix one row per output entry). -/
def lin {k n : Nat} (W : Fin n → Fin k → EReal) (b : Fin n → EReal) (h : Fin k → EReal) (j : Fin n) : EReal :=
  (∑ e : Fin k, h e * W j e) + b j

/-- The scaled scores of one query row `q` against the key rows `K`. -/
def scores {S E : Nat} (q : Fin E → EReal) (K : Fin S → Fin E → EReal) (k : Fin S) : EReal :=
  (∑ e : Fin E, q e * K k e) * scale

/-- The maximum of a row of scores: the fold of `max` from −∞. -/
def rowMax {S : Nat} (s : Fin S → EReal) : EReal :=
  (Finset.univ : Finset (Fin S)).fold max negInf s

/-- The attention weights of a row of scores: the shifted exponentials over their sum, times the scaling word. -/
def weights {S : Nat} (s : Fin S → EReal) (k : Fin S) : EReal :=
  Ideal.div (Ideal.exp (s k - rowMax s)) (∑ k' : Fin S, Ideal.exp (s k' - rowMax s)) * scale

/-- The weight-weighted sum of the value rows. -/
def mix {S E : Nat} (w : Fin S → EReal) (V : Fin S → Fin E → EReal) (e : Fin E) : EReal :=
  ∑ k : Fin S, w k * V k e

/-- The attended and projected row of the query row `x` within the batch element whose rows are `X`. -/
def head {S E C : Nat} (X : Fin S → Fin E → EReal) (Wq Wk Wv : Fin E → Fin E → EReal) (bq bk bv : Fin E → EReal)
    (Wo : Fin C → Fin E → EReal) (bo : Fin C → EReal) (x : Fin E → EReal) (o : Fin C) : EReal :=
  lin Wo bo (mix (weights (scores (lin Wq bq x) (fun k => lin Wk bk (X k)))) (fun k => lin Wv bv (X k))) o

end Cert.AttnSpec

end
-- ==== Proof.LibAxisReads.lean ====
/-
  Reading reductions over one axis, the keep-dimension layouts around them, and a one-axis matrix product at an
  entry — general facts about vectors on the extended reals, stated over literal ranks with symbolic extents.

  * A reduced index with the dropped coordinate put back is the index with that coordinate in its place
    (rank 2, either axis; rank 3, the last two axes).
  * A maximum or a sum along one axis of a rank-2 vector, read at a row or a column, is the fold of `max` from the
    starting word, or the sum, over that row or column.
  * The host's reduction with a maximum body along the last or the middle axis of a rank-3 array, read at an entry, is
    the same fold over that axis.
  * A vector kept as a column ([a] → [a, 1] → [a, b]) or as a row ([b] → [1, b] → [a, b]) reads back the entry of
    its row or column.
  * A matrix product into the zero accumulator that contracts ONE axis, read at an entry, is the sum over that
    axis of the products of the two operands read where the dimension numbers send the entry and the position.
-/
import Idealize.ShloMosaic.PureOps.Ideal.Laws
import Idealize.ShloMosaic.Lib.ValueIdx
import Idealize.ShloMosaic.Lib.ValueLayout
import Idealize.ShloMosaic.Lib.Pipeline.Value

noncomputable section

namespace Cert.AxisReads

open Idealize.ShloMosaic Idealize.ShloMosaic.ValueIdx

/-! ## The dropped coordinate put back -/

/-- Rank 2, the second axis dropped: row `i` with column `k` put back is (i, k). -/
theorem lift2_axis1 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Rank 2, the first axis dropped: column `j` with row `k` put back is (k, j). -/
theorem lift2_axis0 {a b : Nat} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- Rank 3, the last axis dropped: (t, i) with `k` put back is (t, i, k). -/
theorem lift3_axis2 {n a b : Nat} (h : (⟨3, ![n, a, b]⟩ : Shape).Reduces [2] (⟨2, ![n, a]⟩ : Shape)) (t : Fin n) (i : Fin a)
    (k : Fin ((⟨3, ![n, a, b]⟩ : Shape).size 2)) : h.lift (ix2 t i) k = ix3 t i (⟨k.val, k.isLt⟩ : Fin b) := by
  funext c; apply Fin.ext
  fin_cases c <;> rfl

/-- Rank 3, the middle axis dropped: (t, j) with `k` put back is (t, k, j). -/
theorem lift3_axis1 {n a b : Nat} (h : (⟨3, ![n, a, b]⟩ : Shape).Reduces [1] (⟨2, ![n, b]⟩ : Shape)) (t : Fin n) (j : Fin b)
    (k : Fin ((⟨3, ![n, a, b]⟩ : Shape).size 1)) : h.lift (ix2 t j) k = ix3 t (⟨k.val, k.isLt⟩ : Fin a) j := by
  funext c; apply Fin.ext
  fin_cases c <;> rfl

/-! ## A maximum and a sum along one axis of a rank-2 vector -/

/-- The maximum along the rows: at row `i`, the fold of `max` from the starting word over the row's entries. -/
theorem rowMax_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] (⟨1, ![a]⟩ : Shape) src acc h hφ hacc (ix1 i)
      = (Finset.univ : Finset (Fin b)).fold max (Ideal.ofBits .f32 acc) fun j => src (ix2 i j) := by
  refine (Ideal.multiReduction_maximumf_single src acc h hφ hacc (ix1 i)).trans ?_
  have hf : (src ∘ h.lift (ix1 i)) = fun j : Fin b => src (ix2 i j) :=
    funext fun k => congrArg src (lift2_axis1 h i k)
  exact congrArg (fun f => Finset.fold max (Ideal.ofBits .f32 acc) f (Finset.univ : Finset (Fin b))) hf

/-- The maximum along the columns: at column `j`, the fold of `max` from the starting word over the column's entries. -/
theorem colMax_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] (⟨1, ![b]⟩ : Shape) src acc h hφ hacc (ix1 j)
      = (Finset.univ : Finset (Fin a)).fold max (Ideal.ofBits .f32 acc) fun i => src (ix2 i j) := by
  refine (Ideal.multiReduction_maximumf_single src acc h hφ hacc (ix1 j)).trans ?_
  have hf : (src ∘ h.lift (ix1 j)) = fun i : Fin a => src (ix2 i j) :=
    funext fun k => congrArg src (lift2_axis0 h j k)
  exact congrArg (fun f => Finset.fold max (Ideal.ofBits .f32 acc) f (Finset.univ : Finset (Fin a))) hf

/-- The sum along the rows: at row `i`, the sum of the row's entries. -/
theorem rowSum_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] (⟨1, ![a]⟩ : Shape) src acc h hφ hacc (ix1 i) = ∑ j : Fin b, src (ix2 i j) := by
  refine (Ideal.multiReduction_add_single src acc h hφ hacc (ix1 i)).trans ?_
  exact Finset.sum_congr rfl fun k _ => congrArg src (lift2_axis1 h i k)

/-- The sum along the columns: at column `j`, the sum of the column's entries. -/
theorem colSum_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] (⟨1, ![b]⟩ : Shape) src acc h hφ hacc (ix1 j) = ∑ i : Fin a, src (ix2 i j) := by
  refine (Ideal.multiReduction_add_single src acc h hφ hacc (ix1 j)).trans ?_
  exact Finset.sum_congr rfl fun k _ => congrArg src (lift2_axis0 h j k)

/-! ## The host's maximum along one axis of a rank-3 array -/

/-- The host's reduction with a maximum body over the LAST axis, at (t, i): the fold of `max` from the initial value over
    the entries (t, i, ·). -/
theorem hostMax3_last_apply {n a b : Nat} (x : FVec Ideal (⟨3, ![n, a, b]⟩ : Shape) .f32) (init : FVec Ideal (⟨0, ![]⟩ : Shape) .f32)
    (h' : (⟨3, ![n, a, b]⟩ : Shape).ReducesTo [2] (⟨2, ![n, a]⟩ : Shape)) (hu : 0 < (⟨0, ![]⟩ : Shape).numel) (t : Fin n) (i : Fin a) :
    Host.reduce FloatOps.maximumf x init h' hu (ix2 t i)
      = (Finset.univ : Finset (Fin b)).fold max (init (Shape.Idx.first hu)) fun k => x (ix3 t i k) := by
  have h : (⟨3, ![n, a, b]⟩ : Shape).Reduces [2] (⟨2, ![n, a]⟩ : Shape) := ⟨h'.1, Nat.zero_lt_two, h'.2⟩
  refine (Host.reduce_eq_fold_single FloatOps.maximumf x init h' h hu (ix2 t i)).trans ?_
  have hf : (x ∘ h.lift (ix2 t i)) = fun k : Fin b => x (ix3 t i k) := funext fun k => congrArg x (lift3_axis2 h t i k)
  exact congrArg (fun f => Finset.fold max (init (Shape.Idx.first hu)) f (Finset.univ : Finset (Fin b))) hf

/-- The host's reduction with a maximum body over the MIDDLE axis, at (t, j): the fold of `max` from the initial value
    over the entries (t, ·, j). -/
theorem hostMax3_mid_apply {n a b : Nat} (x : FVec Ideal (⟨3, ![n, a, b]⟩ : Shape) .f32) (init : FVec Ideal (⟨0, ![]⟩ : Shape) .f32)
    (h' : (⟨3, ![n, a, b]⟩ : Shape).ReducesTo [1] (⟨2, ![n, b]⟩ : Shape)) (hu : 0 < (⟨0, ![]⟩ : Shape).numel) (t : Fin n) (j : Fin b) :
    Host.reduce FloatOps.maximumf x init h' hu (ix2 t j)
      = (Finset.univ : Finset (Fin a)).fold max (init (Shape.Idx.first hu)) fun k => x (ix3 t k j) := by
  have h : (⟨3, ![n, a, b]⟩ : Shape).Reduces [1] (⟨2, ![n, b]⟩ : Shape) := ⟨h'.1, Nat.zero_lt_two, h'.2⟩
  refine (Host.reduce_eq_fold_single FloatOps.maximumf x init h' h hu (ix2 t j)).trans ?_
  have hf : (x ∘ h.lift (ix2 t j)) = fun k : Fin a => x (ix3 t k j) := funext fun k => congrArg x (lift3_axis1 h t j k)
  exact congrArg (fun f => Finset.fold max (init (Shape.Idx.first hu)) f (Finset.univ : Finset (Fin a))) hf

/-! ## A vector kept as a column, or as a row -/

variable {α : Type}

/-- An `[a]` vector cast to the column `[a, 1]` reads, at `(i, u)`, entry `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and spread over the columns reads its own entry `i` all along row `i`. -/
theorem column_spread_apply {a b : Nat} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

/-- A vector kept as a row and spread over the rows reads its own entry `j` all along column `j`. -/
theorem row_spread_apply {a b : Nat} (x : (⟨1, ![b]⟩ : Shape).Idx → α) (h : (⟨1, ![b]⟩ : Shape).ShapeCasts ⟨2, ![1, b]⟩)
    (h' : (⟨2, ![1, b]⟩ : Shape).Broadcasts ⟨2, ![a, b]⟩) (i : Fin a) (j : Fin b) :
    broadcastTo ⟨2, ![a, b]⟩ (shapeCast ⟨2, ![1, b]⟩ x h) h' (ix2 i j) = x (ix1 j) :=
  (broadcastTo_1b_ab_apply _ h' i j).trans (shapeCast_a_1a_apply x h 0 j)

/-! ## A one-axis matrix product into zero, at an entry -/

/-- With ONE contracted axis of extent `n`, the product into the zero accumulator at entry `j` is the sum over
    `k : Fin n` of the operands' products, each operand read where the dimension numbers send `j` and position `k`
    (`hl`, `hr`: what those reads are). -/
theorem matmul_zero_single {sl sr so : Shape} {φ₁ φ₂ : FTy} (D : DotDims sl sr so) (n : Nat) (hrk : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hrk hs).symm k)) = L k)
    (hr : ∀ k : Fin n, rhs (D.rhsIdx j ((contrEquiv1 D n hrk hs).symm k)) = R k) :
    matmul D none lhs rhs (constant so .f32 0x00000000#32) j = ∑ k : Fin n, L k * R k := by
  show FloatOps.matmul D none lhs rhs (constant so .f32 0x00000000#32) j = _
  rw [Ideal.matmul_constant_zero_apply, ← Equiv.sum_comp (contrEquiv1 D n hrk hs).symm]
  exact Finset.sum_congr rfl fun k _ => by rw [hl k, hr k]

end Cert.AxisReads

end
-- ==== Proof.LibDenseRows.lean ====
/-
  Dense layers on the extended reals, row by row.

  A dense layer sends a row vector `h` of length `k` to the vector whose entry `j` is `∑ c, h c · W j c + b j` — the
  weight matrix `W` is `n × k`, one row per output entry — and a rectified layer takes the positive part of each
  entry. The matrix unit computes such a layer for all rows of an `m × k` array at once: its product of the `m × k`
  array with the `n × k` weights, the right operand contracted on its LAST axis, into the zero accumulator holds at
  entry `(a, j)` the sum over the contracted position `c` of `A[a,c] · W[j,c]`; adding the bias kept as a row
  `[1, n]` spread over the `m` rows and taking the maximum with the zero splat gives, at `(a, j)`, the rectified
  layer of row `a`. So every row of the result depends on the same row of the operand only.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DenseRows

open Idealize.ShloMosaic Idealize.ShloMosaic.ValueIdx

/-! ## The layers, on one row -/

/-- A dense layer on one row: entry `j` is `∑ c, h c · W j c + b j`. -/
def dense {k n : Nat} (W : Fin n → Fin k → EReal) (b : Fin n → EReal) (h : Fin k → EReal) : Fin n → EReal :=
  fun j => (∑ c : Fin k, h c * W j c) + b j

/-- A rectified dense layer on one row: the positive part of each entry of the dense layer. -/
def reluDense {k n : Nat} (W : Fin n → Fin k → EReal) (b : Fin n → EReal) (h : Fin k → EReal) : Fin n → EReal :=
  fun j => max (dense W b h j) 0

/-- The layers respect equality of the incoming row. -/
theorem dense_congr {k n : Nat} (W : Fin n → Fin k → EReal) (b : Fin n → EReal) {h h' : Fin k → EReal}
    (e : ∀ c, h c = h' c) (j : Fin n) : dense W b h j = dense W b h' j := by
  rw [show h = h' from funext e]

/-- The rectified layers respect equality of the incoming row. -/
theorem reluDense_congr {k n : Nat} (W : Fin n → Fin k → EReal) (b : Fin n → EReal) {h h' : Fin k → EReal}
    (e : ∀ c, h c = h' c) (j : Fin n) : reluDense W b h j = reluDense W b h' j := by
  rw [show h = h' from funext e]

/-! ## The product with the right operand contracted on its last axis -/

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contracted position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contracted position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product into the zero accumulator at an entry**: `∑ c, A[a,c] · B[j,c]`, at the ideal values, whatever the
    operands' formats and the precision key. -/
theorem matmul_rows_zero_apply {φ₁ φ₂ : FTy} (prec : Option ContractPrecision)
    (A : FVec Ideal ⟨2, ![m, k]⟩ φ₁) (B : FVec Ideal ⟨2, ![n, k]⟩ φ₂) (a : Fin m) (j : Fin n) :
    FloatOps.matmul (DotDims.transposedRhs m k n) prec A B (constant ⟨2, ![m, n]⟩ .f32 0x00000000#32) (ix2 a j)
      = ∑ c : Fin k, A (ix2 a c) * B (ix2 j c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a j) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a j) ((contrEquiv1 (DotDims.transposedRhs m k n) k rfl rfl).symm c) = ix2 j c :=
    funext fun ax => Fin.ext (by
      match ax with
      | ⟨0, _⟩ => exact rhs_row _ _
      | ⟨1, _⟩ => exact (rhs_col _ _).trans hc)
  rw [el, er]

/-! ## A rectified layer computed for all rows at once -/

/-- The product into zero, plus the bias row spread over the rows, rectified against the zero splat: at `(a, j)` the
    rectified dense layer of row `a` of the left operand, with the weights' row `j` and the bias' entry `j`. -/
theorem relu_rows_apply {φ₁ φ₂ : FTy} (prec : Option ContractPrecision)
    (v : FVec Ideal ⟨2, ![m, k]⟩ φ₁) (W : FVec Ideal ⟨2, ![n, k]⟩ φ₂) (bias : FVec Ideal ⟨2, ![1, n]⟩ .f32)
    (hb : (⟨2, ![1, n]⟩ : Shape).Broadcasts ⟨2, ![m, n]⟩) (a : Fin m) (j : Fin n) :
    maximumf (addf (matmul (DotDims.transposedRhs m k n) prec v W (constant ⟨2, ![m, n]⟩ .f32 0x00000000#32))
        (broadcastTo ⟨2, ![m, n]⟩ bias hb))
      (broadcast ⟨2, ![m, n]⟩ (Scalar.ofBits .f32 0x00000000#32)) (ix2 a j)
      = reluDense (fun j c => W (ix2 j c)) (fun j => bias (ix2 (0 : Fin 1) j)) (fun c => v (ix2 a c)) j := by
  show max (FloatOps.matmul (DotDims.transposedRhs m k n) prec v W (constant ⟨2, ![m, n]⟩ .f32 0x00000000#32) (ix2 a j)
      + broadcastTo ⟨2, ![m, n]⟩ bias hb (ix2 a j)) (Ideal.ofBits .f32 0x00000000#32) = _
  rw [matmul_rows_zero_apply, broadcastTo_1b_ab_apply, Ideal.ofBits_zero_f32]
  rfl

/-- The same with the bias row first cast to its own shape (an identity cast). -/
theorem relu_rows_cast_apply {φ₁ φ₂ : FTy} (prec : Option ContractPrecision)
    (v : FVec Ideal ⟨2, ![m, k]⟩ φ₁) (W : FVec Ideal ⟨2, ![n, k]⟩ φ₂) (bias : FVec Ideal ⟨2, ![1, n]⟩ .f32)
    (hsc : (⟨2, ![1, n]⟩ : Shape).ShapeCasts ⟨2, ![1, n]⟩) (hb : (⟨2, ![1, n]⟩ : Shape).Broadcasts ⟨2, ![m, n]⟩)
    (a : Fin m) (j : Fin n) :
    maximumf (addf (matmul (DotDims.transposedRhs m k n) prec v W (constant ⟨2, ![m, n]⟩ .f32 0x00000000#32))
        (broadcastTo ⟨2, ![m, n]⟩ (shapeCast ⟨2, ![1, n]⟩ bias hsc) hb))
      (broadcast ⟨2, ![m, n]⟩ (Scalar.ofBits .f32 0x00000000#32)) (ix2 a j)
      = reluDense (fun j c => W (ix2 j c)) (fun j => bias (ix2 (0 : Fin 1) j)) (fun c => v (ix2 a c)) j := by
  rw [shapeCast_self]
  exact relu_rows_apply prec v W bias hb a j

end Cert.DenseRows

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernelPayload.lean ====
/-
  The three values the attention body stores, read at one entry, on the extended reals.

  The stored keys and the stored values are a linear layer applied to every row of the batch element: entry
  (k, e) is the linear layer of row k at output entry e. The row block's output is, for query row r and class o,
  the output projection of the mixed row: the query row is projected to a query, scored against every stored key
  (inner product times the scaling word), the scores are turned into weights (shifted by their maximum,
  exponentiated, divided by the sum of the exponentials, times the scaling word), the stored values are mixed with
  those weights, and the mixed row is projected by the output layer. Roundings to a narrower format are the identity
  on the extended reals, and a reshape between [1, a, b] and [a, b] only renames the index.
-/
import proofs.«167545_j61692910240526_1_alg».proof.Proof.Gen.KernelIdeal.Skeleton
import proofs.«167545_j61692910240526_1_alg».proof.Proof.AttnSpec
import proofs.«167545_j61692910240526_1_alg».proof.Proof.LibAxisReads
import proofs.«167545_j61692910240526_1_alg».proof.Proof.LibDenseRows
import proofs.«167545_j61692910240526_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-! ## A linear layer computed for all rows at once -/

/-- The product of an `m × k` array with `n × k` weights (contracted on the weights' last axis) into zero, plus the
    bias row spread over the rows: at `(a, j)` the linear layer of row `a` at output entry `j`. -/
theorem lin_rows_apply {m k n : Nat} {φ₁ φ₂ : FTy} (A : FVec Ideal ⟨2, ![m, k]⟩ φ₁) (W : FVec Ideal ⟨2, ![n, k]⟩ φ₂)
    (bias : FVec Ideal ⟨2, ![1, n]⟩ .f32) (hsc : (⟨2, ![1, n]⟩ : Shape).ShapeCasts ⟨2, ![1, n]⟩)
    (hb : (⟨2, ![1, n]⟩ : Shape).Broadcasts ⟨2, ![m, n]⟩) (a : Fin m) (j : Fin n) :
    addf (matmul (DotDims.transposedRhs m k n) none A W (constant ⟨2, ![m, n]⟩ .f32 0x00000000#32))
        (broadcastTo ⟨2, ![m, n]⟩ (shapeCast ⟨2, ![1, n]⟩ bias hsc) hb) (ix2 a j)
      = Cert.AttnSpec.lin (fun o c => W (ix2 o c)) (fun o => bias (ix2 (0 : Fin 1) o)) (fun c => A (ix2 a c)) j := by
  rw [shapeCast_self]
  show FloatOps.matmul (DotDims.transposedRhs m k n) none A W (constant ⟨2, ![m, n]⟩ .f32 0x00000000#32) (ix2 a j)
      + broadcastTo ⟨2, ![m, n]⟩ bias hb (ix2 a j) = _
  rw [Cert.DenseRows.matmul_rows_zero_apply, broadcastTo_1b_ab_apply]
  rfl

/-! ## The keys and the values -/

theorem keys_apply (xf : Vec Ideal S1x4096x256 .f32) (wk : Vec Ideal S256x256 .f32) (bk : Vec Ideal S1x256 .f32) (k : Fin 4096) (e : Fin 256) :
    k0_pay3 (F := Ideal) xf wk bk (ix2 k e)
      = Cert.AttnSpec.lin (fun o c => wk (ix2 o c)) (fun o => bk (ix2 (0 : Fin 1) o)) (fun c => xf (ix3 (0 : Fin 1) k c)) e := by
  unfold k0_pay3 k0_pay2
  rw [shapeCast_self]
  refine (lin_rows_apply (m := 4096) (k := 256) (n := 256)
    (truncf .bf16 (shapeCast S4096x256 xf Facts₀.shapeCasts_S1x4096x256_S4096x256) Facts₀.bitsLt_bf16_f32)
    (truncf .bf16 wk Facts₀.bitsLt_bf16_f32) bk Facts₀.shapeCasts_S1x256_S1x256 Facts₀.broadcasts_S1x256_S4096x256 k e).trans ?_
  have hx : ∀ c : Fin 256, (truncf .bf16 (shapeCast S4096x256 xf Facts₀.shapeCasts_S1x4096x256_S4096x256) Facts₀.bitsLt_bf16_f32 : FVec Ideal S4096x256 .bf16) (ix2 k c)
      = xf (ix3 (0 : Fin 1) k c) := fun c => shapeCast_1ab_ab_apply xf _ k c
  unfold Cert.AttnSpec.lin
  exact congrArg (· + bk (ix2 (0 : Fin 1) e)) (Finset.sum_congr rfl fun c _ => congrArg (· * wk (ix2 e c)) (hx c))

theorem values_apply (xf : Vec Ideal S1x4096x256 .f32) (wv : Vec Ideal S256x256 .f32) (bv : Vec Ideal S1x256 .f32) (k : Fin 4096) (e : Fin 256) :
    k0_pay4 (F := Ideal) xf wv bv (ix2 k e)
      = Cert.AttnSpec.lin (fun o c => wv (ix2 o c)) (fun o => bv (ix2 (0 : Fin 1) o)) (fun c => xf (ix3 (0 : Fin 1) k c)) e := by
  unfold k0_pay4 k0_pay2
  rw [shapeCast_self]
  refine (lin_rows_apply (m := 4096) (k := 256) (n := 256)
    (truncf .bf16 (shapeCast S4096x256 xf Facts₀.shapeCasts_S1x4096x256_S4096x256) Facts₀.bitsLt_bf16_f32)
    (truncf .bf16 wv Facts₀.bitsLt_bf16_f32) bv Facts₀.shapeCasts_S1x256_S1x256 Facts₀.broadcasts_S1x256_S4096x256 k e).trans ?_
  have hx : ∀ c : Fin 256, (truncf .bf16 (shapeCast S4096x256 xf Facts₀.shapeCasts_S1x4096x256_S4096x256) Facts₀.bitsLt_bf16_f32 : FVec Ideal S4096x256 .bf16) (ix2 k c)
      = xf (ix3 (0 : Fin 1) k c) := fun c => shapeCast_1ab_ab_apply xf _ k c
  unfold Cert.AttnSpec.lin
  exact congrArg (· + bv (ix2 (0 : Fin 1) e)) (Finset.sum_congr rfl fun c _ => congrArg (· * wv (ix2 e c)) (hx c))

/-! ## The stages of the row block's attention -/

section Stages

variable (x0 : Vec Ideal S1x256x256 .f32) (wq : Vec Ideal S256x256 .f32) (bq : Vec Ideal S1x256 .f32)
  (ks vs : Vec Ideal S4096x256 .bf16)

/-- The queries of the row block: the query rows through the query layer. -/
def queries : FVec Ideal S256x256 .bf16 :=
  truncf .bf16 (addf (matmul dot_S256x256_S256x256_S256x256_1_1_0_0_n_n none
      (truncf .bf16 (shapeCast S256x256 x0 Facts₀.shapeCasts_S1x256x256_S256x256) Facts₀.bitsLt_bf16_f32 : FVec Ideal S256x256 .bf16)
      (truncf .bf16 wq Facts₀.bitsLt_bf16_f32 : FVec Ideal S256x256 .bf16) (constant S256x256 .f32 0x00000000#32))
    (broadcastTo S256x256 (shapeCast S1x256 bq Facts₀.shapeCasts_S1x256_S1x256) Facts₀.broadcasts_S1x256_S256x256)) Facts₀.bitsLt_bf16_f32

/-- The query of row `r`. -/
def qrow (r : Fin 256) : Fin 256 → EReal :=
  Cert.AttnSpec.lin (fun o c => wq (ix2 o c)) (fun o => bq (ix2 (0 : Fin 1) o)) (fun c => x0 (ix3 (0 : Fin 1) r c))

theorem queries_apply (r e : Fin 256) : queries x0 wq bq (ix2 r e) = qrow x0 wq bq r e := by
  unfold queries qrow
  refine (lin_rows_apply (m := 256) (k := 256) (n := 256)
    (truncf .bf16 (shapeCast S256x256 x0 Facts₀.shapeCasts_S1x256x256_S256x256) Facts₀.bitsLt_bf16_f32)
    (truncf .bf16 wq Facts₀.bitsLt_bf16_f32) bq Facts₀.shapeCasts_S1x256_S1x256 Facts₀.broadcasts_S1x256_S256x256 r e).trans ?_
  have hx : ∀ c : Fin 256, (truncf .bf16 (shapeCast S256x256 x0 Facts₀.shapeCasts_S1x256x256_S256x256) Facts₀.bitsLt_bf16_f32 : FVec Ideal S256x256 .bf16) (ix2 r c)
      = x0 (ix3 (0 : Fin 1) r c) := fun c => shapeCast_1ab_ab_apply x0 _ r c
  unfold Cert.AttnSpec.lin
  exact congrArg (· + bq (ix2 (0 : Fin 1) e)) (Finset.sum_congr rfl fun c _ => congrArg (· * wq (ix2 e c)) (hx c))

/-- The scaled scores of the row block against the stored keys. -/
def scoresV : FVec Ideal S256x4096 .f32 :=
  mulf (matmul (φ₂ := .bf16) dot_S256x256_S4096x256_S256x4096_1_1_0_0_n_n none (queries x0 wq bq) ks (constant S256x4096 .f32 0x00000000#32))
    (broadcast S256x4096 (Scalar.ofBits .f32 0x3D800000#32))

/-- The scores of row `r`. -/
def srow (r : Fin 256) : Fin 4096 → EReal :=
  Cert.AttnSpec.scores (qrow x0 wq bq r) (fun k e => ks (ix2 k e))

theorem scoresV_apply (r : Fin 256) (k : Fin 4096) : scoresV x0 wq bq ks (ix2 r k) = srow x0 wq bq ks r k := by
  unfold scoresV srow Cert.AttnSpec.scores Cert.AttnSpec.scale
  show FloatOps.matmul (φ₂ := .bf16) (DotDims.transposedRhs 256 256 4096) none (queries x0 wq bq) ks (constant ⟨2, ![256, 4096]⟩ .f32 0x00000000#32) (ix2 r k)
      * Ideal.ofBits .f32 0x3D800000#32 = _
  rw [Cert.DenseRows.matmul_rows_zero_apply]
  exact congrArg (· * Ideal.ofBits .f32 0x3D800000#32)
    (Finset.sum_congr rfl fun e _ => congrArg (· * ks (ix2 k e)) (queries_apply x0 wq bq r e))

end Stages

section Stages2

variable (x0 : Vec Ideal S1x256x256 .f32) (wq : Vec Ideal S256x256 .f32) (bq : Vec Ideal S1x256 .f32)
  (ks vs : Vec Ideal S4096x256 .bf16)

/-- The row maxima of the scores. -/
def maxV : FVec Ideal S256 .f32 :=
  multiReduction (F := Ideal) .maximumf [1] S256 (scoresV x0 wq bq ks) 0xFF800000#32 Facts₀.reduces_S256x4096_S256 (.inl rfl) rfl

theorem maxV_apply (r : Fin 256) : maxV x0 wq bq ks (ix1 r) = Cert.AttnSpec.rowMax (srow x0 wq bq ks r) := by
  unfold maxV
  refine (Cert.AxisReads.rowMax_apply (a := 256) (b := 4096) (scoresV x0 wq bq ks) 0xFF800000#32
    Facts₀.reduces_S256x4096_S256 (.inl rfl) rfl r).trans ?_
  unfold Cert.AttnSpec.rowMax Cert.AttnSpec.negInf
  exact congrArg (fun f => Finset.fold max (Ideal.ofBits .f32 0xFF800000#32) f (Finset.univ : Finset (Fin 4096)))
    (funext fun k => scoresV_apply x0 wq bq ks r k)

/-- The exponentials of the scores shifted by their row maximum. -/
def expV : FVec Ideal S256x4096 .f32 :=
  exp (subf (scoresV x0 wq bq ks)
    (broadcastTo S256x4096 (shapeCast S256x1 (maxV x0 wq bq ks) Facts₀.shapeCasts_S256_S256x1) Facts₀.broadcasts_S256x1_S256x4096))

theorem expV_apply (r : Fin 256) (k : Fin 4096) :
    expV x0 wq bq ks (ix2 r k)
      = Ideal.exp (srow x0 wq bq ks r k - Cert.AttnSpec.rowMax (srow x0 wq bq ks r)) := by
  have hm : broadcastTo S256x4096 (shapeCast S256x1 (maxV x0 wq bq ks) Facts₀.shapeCasts_S256_S256x1)
      Facts₀.broadcasts_S256x1_S256x4096 (ix2 r k) = Cert.AttnSpec.rowMax (srow x0 wq bq ks r) :=
    (Cert.AxisReads.column_spread_apply (a := 256) (b := 4096) (maxV x0 wq bq ks) Facts₀.shapeCasts_S256_S256x1
      Facts₀.broadcasts_S256x1_S256x4096 r k).trans (maxV_apply x0 wq bq ks r)
  unfold expV
  show Ideal.exp (scoresV x0 wq bq ks (ix2 r k)
    - broadcastTo S256x4096 (shapeCast S256x1 (maxV x0 wq bq ks) Facts₀.shapeCasts_S256_S256x1)
        Facts₀.broadcasts_S256x1_S256x4096 (ix2 r k)) = _
  rw [hm, scoresV_apply]

/-- The row sums of the exponentials. -/
def sumV : FVec Ideal S256 .f32 :=
  multiReduction (F := Ideal) .add [1] S256 (expV x0 wq bq ks) 0x00000000#32 Facts₀.reduces_S256x4096_S256 (.inl rfl) rfl

theorem sumV_apply (r : Fin 256) :
    sumV x0 wq bq ks (ix1 r)
      = ∑ k' : Fin 4096, Ideal.exp (srow x0 wq bq ks r k' - Cert.AttnSpec.rowMax (srow x0 wq bq ks r)) := by
  unfold sumV
  refine (Cert.AxisReads.rowSum_apply (a := 256) (b := 4096) (expV x0 wq bq ks) 0x00000000#32
    Facts₀.reduces_S256x4096_S256 (.inl rfl) rfl r).trans ?_
  exact Finset.sum_congr rfl fun k' _ => expV_apply x0 wq bq ks r k'

/-- The attention weights of the row block. -/
def weightsV : FVec Ideal S256x4096 .bf16 :=
  truncf .bf16 (mulf (divf (expV x0 wq bq ks)
      (broadcastTo S256x4096 (shapeCast S256x1 (sumV x0 wq bq ks) Facts₀.shapeCasts_S256_S256x1) Facts₀.broadcasts_S256x1_S256x4096))
    (broadcast S256x4096 (Scalar.ofBits .f32 0x3D800000#32))) Facts₀.bitsLt_bf16_f32

theorem weightsV_apply (r : Fin 256) (k : Fin 4096) :
    weightsV x0 wq bq ks (ix2 r k) = Cert.AttnSpec.weights (srow x0 wq bq ks r) k := by
  have hs : broadcastTo S256x4096 (shapeCast S256x1 (sumV x0 wq bq ks) Facts₀.shapeCasts_S256_S256x1)
      Facts₀.broadcasts_S256x1_S256x4096 (ix2 r k)
        = ∑ k' : Fin 4096, Ideal.exp (srow x0 wq bq ks r k' - Cert.AttnSpec.rowMax (srow x0 wq bq ks r)) :=
    (Cert.AxisReads.column_spread_apply (a := 256) (b := 4096) (sumV x0 wq bq ks) Facts₀.shapeCasts_S256_S256x1
      Facts₀.broadcasts_S256x1_S256x4096 r k).trans (sumV_apply x0 wq bq ks r)
  unfold weightsV Cert.AttnSpec.weights Cert.AttnSpec.scale
  show Ideal.div (expV x0 wq bq ks (ix2 r k))
      (broadcastTo S256x4096 (shapeCast S256x1 (sumV x0 wq bq ks) Facts₀.shapeCasts_S256_S256x1)
        Facts₀.broadcasts_S256x1_S256x4096 (ix2 r k)) * Ideal.ofBits .f32 0x3D800000#32 = _
  rw [hs, expV_apply]

/-- The mixed rows of the row block. -/
def mixV : FVec Ideal S256x256 .bf16 :=
  truncf .bf16 (matmul (φ₂ := .bf16) dot_S256x4096_S4096x256_S256x256_1_0_0_1_n_n none (weightsV x0 wq bq ks) vs
    (constant S256x256 .f32 0x00000000#32)) Facts₀.bitsLt_bf16_f32

theorem mixV_apply (r e : Fin 256) :
    mixV x0 wq bq ks vs (ix2 r e)
      = Cert.AttnSpec.mix (Cert.AttnSpec.weights (srow x0 wq bq ks r)) (fun k e => vs (ix2 k e)) e := by
  unfold mixV Cert.AttnSpec.mix
  show FloatOps.matmul (φ₂ := .bf16) (DotDims.plain 256 4096 256) none (weightsV x0 wq bq ks) vs
    (constant ⟨2, ![256, 256]⟩ .f32 0x00000000#32) (ix2 r e) = _
  rw [Idealize.ShloMosaic.PlainMatmul.matmul_zero_apply]
  exact Finset.sum_congr rfl fun k _ => congrArg (· * vs (ix2 k e)) (weightsV_apply x0 wq bq ks r k)

/-- The body's attention value is the chain of the stages above. -/
theorem pay5_eq : k0_pay5 (F := Ideal) x0 wq bq ks vs = mixV x0 wq bq ks vs := rfl

end Stages2

/-! ## The row block's output -/

theorem out_apply (x0 : Vec Ideal S1x256x256 .f32) (wq : Vec Ideal S256x256 .f32) (bq : Vec Ideal S1x256 .f32)
    (ks vs : Vec Ideal S4096x256 .bf16) (wo : Vec Ideal S16x256 .f32) (bo : Vec Ideal S1x16 .f32) (r : Fin 256) (o : Fin 16) :
    k0_pay1 (F := Ideal) (k0_pay5 x0 wq bq ks vs) (k0_pay6 wo) bo (ix3 (0 : Fin 1) r o)
      = Cert.AttnSpec.lin (fun o c => wo (ix2 o c)) (fun o => bo (ix2 (0 : Fin 1) o))
          (Cert.AttnSpec.mix
            (Cert.AttnSpec.weights (Cert.AttnSpec.scores
              (Cert.AttnSpec.lin (fun o c => wq (ix2 o c)) (fun o => bq (ix2 (0 : Fin 1) o)) (fun c => x0 (ix3 (0 : Fin 1) r c)))
              (fun k e => ks (ix2 k e))))
            (fun k e => vs (ix2 k e))) o := by
  unfold k0_pay1 k0_pay6
  refine (shapeCast_ab_1ab_apply _ Facts₀.shapeCasts_S256x16_S1x256x16 (0 : Fin 1) r o).trans ?_
  refine (lin_rows_apply (m := 256) (k := 256) (n := 16) (k0_pay5 (F := Ideal) x0 wq bq ks vs)
    (truncf .bf16 wo Facts₀.bitsLt_bf16_f32) bo Facts₀.shapeCasts_S1x16_S1x16 Facts₀.broadcasts_S1x16_S256x16 r o).trans ?_
  have hrow : (fun c : Fin 256 => k0_pay5 (F := Ideal) x0 wq bq ks vs (ix2 r c))
      = Cert.AttnSpec.mix (Cert.AttnSpec.weights (srow x0 wq bq ks r)) (fun k e => vs (ix2 k e)) :=
    funext fun c => (congrFun (pay5_eq x0 wq bq ks vs) (ix2 r c)).trans (mixV_apply x0 wq bq ks vs r c)
  exact congrArg (fun h => Cert.AttnSpec.lin (fun o c => wo (ix2 o c)) (fun o => bo (ix2 (0 : Fin 1) o)) h o) hrow

end Cert.KernelIdeal.Payload

end
-- ==== Proof.KI_Value.lean ====
/-
  What the attention kernel's result array holds after the run, on the extended reals.

  The caches carry one batch element's keys and values: by induction over the grid, after point `t` the key cache's
  entry `(k, e)` is the key projection of row `k` of batch element `t / 16`, and likewise the value cache — refilled
  where `t % 16 = 0`, handed on unchanged elsewhere, and `t / 16` does not change along a batch element. So at every
  point the output tile's entry `(r, o)` is the attended, projected row of query row `(t % 16)·256 + r` of that batch
  element (`tile_at`), which is exactly what the tile's place in the result array asks for; the tiles cover the array,
  hence the array is that function of the arguments everywhere (`final`).
-/
import proofs.«167545_j61692910240526_1_alg».proof.Proof.KI_Frame
import proofs.«167545_j61692910240526_1_alg».proof.Proof.KI_Pieces
import proofs.«167545_j61692910240526_1_alg».proof.Proof.KI_Blocks
import proofs.«167545_j61692910240526_1_alg».proof.Proof.KernelPayload
import proofs.«167545_j61692910240526_1_alg».proof.Proof.AttnSpec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The specification at the argument arrays -/

/-- The attended, projected row `s` of batch element `b`, class `o`, from the nine argument arrays. -/
def rowHead (c : Dev nD) (b : Fin 4) (s : Fin 4096) (o : Fin 16) : EReal :=
  Cert.AttnSpec.head
    (fun k e => m ((c : Thread nD τ).loc main_arg0) (ix3 b k e))
    (fun o e => m ((c : Thread nD τ).loc main_arg1) (ix2 o e))
    (fun o e => m ((c : Thread nD τ).loc main_arg3) (ix2 o e))
    (fun o e => m ((c : Thread nD τ).loc main_arg5) (ix2 o e))
    (fun o => m ((c : Thread nD τ).loc main_arg2) (ix1 o))
    (fun o => m ((c : Thread nD τ).loc main_arg4) (ix1 o))
    (fun o => m ((c : Thread nD τ).loc main_arg6) (ix1 o))
    (fun o e => m ((c : Thread nD τ).loc main_arg7) (ix2 o e))
    (fun o => m ((c : Thread nD τ).loc main_arg8) (ix1 o))
    (fun e => m ((c : Thread nD τ).loc main_arg0) (ix3 b s e)) o

/-- The result array as one function of the arguments. -/
def G (c : Dev nD) : S4x4096x16.Idx → EReal := fun i => rowHead m c (i 0) (i 1) (i 2)

theorem G_ix3 (c : Dev nD) (b : Fin 4) (s : Fin 4096) (o : Fin 16) : G m c (ix3 b s o) = rowHead m c b s o := rfl

/-! ## The caches through the grid -/

theorem hb' (n : ℕ) (hn : n < cfg0.N) : n / 16 < 4 := by
  have hN : n < 64 := lt_of_lt_of_eq hn N_0
  omega

/-- After position `n` the key cache holds the key projections of the rows of batch element `n / 16`. -/
theorem keys_at (c : Dev nD) : ∀ (n : ℕ) (hn : n < cfg0.N) (k : Fin 4096) (e : Fin 256),
    (outsAt0 m c n hn).2.1 (ix2 k e)
      = Cert.AttnSpec.lin (fun o e' => m ((c : Thread nD τ).loc main_arg3) (ix2 o e')) (fun o => m ((c : Thread nD τ).loc main_arg4) (ix1 o))
          (fun e' => m ((c : Thread nD τ).loc main_arg0) (ix3 (⟨n / 16, hb' n hn⟩ : Fin 4) k e')) e := by
  intro n
  induction n with
  | zero =>
    intro hn k e
    rw [outsAt0_A m c ⟨0, hn⟩ (Nat.zero_mod _)]
    dsimp only
    rw [sout0_A_0_eq]
    refine (Cert.KernelIdeal.Payload.keys_apply _ _ _ k e).trans ?_
    simp only [iblk1_apply, iblk4_apply, iblk5_apply]
  | succ n ih =>
    intro hn k e
    by_cases h0 : (n + 1) % 16 = 0
    · rw [outsAt0_A m c ⟨n + 1, hn⟩ h0]
      dsimp only
      rw [sout0_A_0_eq]
      refine (Cert.KernelIdeal.Payload.keys_apply _ _ _ k e).trans ?_
      simp only [iblk1_apply, iblk4_apply, iblk5_apply]
    · rw [outsAt0_B m c ⟨n + 1, hn⟩ h0]
      dsimp only
      have hN : n + 1 < 64 := lt_of_lt_of_eq hn N_0
      have hq : (⟨(n + 1) / 16, hb' (n + 1) hn⟩ : Fin 4) = ⟨n / 16, hb' n (Nat.lt_of_succ_lt hn)⟩ := Fin.ext (by dsimp only; omega)
      rw [hq]
      exact ih (Nat.lt_of_succ_lt hn) k e

/-- After position `n` the value cache holds the value projections of the rows of batch element `n / 16`. -/
theorem values_at (c : Dev nD) : ∀ (n : ℕ) (hn : n < cfg0.N) (k : Fin 4096) (e : Fin 256),
    (outsAt0 m c n hn).2.2 (ix2 k e)
      = Cert.AttnSpec.lin (fun o e' => m ((c : Thread nD τ).loc main_arg5) (ix2 o e')) (fun o => m ((c : Thread nD τ).loc main_arg6) (ix1 o))
          (fun e' => m ((c : Thread nD τ).loc main_arg0) (ix3 (⟨n / 16, hb' n hn⟩ : Fin 4) k e')) e := by
  intro n
  induction n with
  | zero =>
    intro hn k e
    rw [outsAt0_A m c ⟨0, hn⟩ (Nat.zero_mod _)]
    dsimp only
    rw [sout0_A_1_eq]
    refine (Cert.KernelIdeal.Payload.values_apply _ _ _ k e).trans ?_
    simp only [iblk1_apply, iblk6_apply, iblk7_apply]
  | succ n ih =>
    intro hn k e
    by_cases h0 : (n + 1) % 16 = 0
    · rw [outsAt0_A m c ⟨n + 1, hn⟩ h0]
      dsimp only
      rw [sout0_A_1_eq]
      refine (Cert.KernelIdeal.Payload.values_apply _ _ _ k e).trans ?_
      simp only [iblk1_apply, iblk6_apply, iblk7_apply]
    · rw [outsAt0_B m c ⟨n + 1, hn⟩ h0]
      dsimp only
      have hN : n + 1 < 64 := lt_of_lt_of_eq hn N_0
      have hq : (⟨(n + 1) / 16, hb' (n + 1) hn⟩ : Fin 4) = ⟨n / 16, hb' n (Nat.lt_of_succ_lt hn)⟩ := Fin.ext (by dsimp only; omega)
      rw [hq]
      exact ih (Nat.lt_of_succ_lt hn) k e

/-! ## The output tile at a point -/

/-- At every point the output tile is the body's output payload of the point's blocks and the caches as the point
    leaves them (which at a refilling point are the caches it has just written). -/
theorem out_at (c : Dev nD) (t : Fin cfg0.N) :
    (outsAt0 m c t.val t.isLt).1
      = k0_pay1 (k0_pay5 (iblk m c 0 t) (iblk m c 2 t) (iblk m c 3 t) (outsAt0 m c t.val t.isLt).2.1 (outsAt0 m c t.val t.isLt).2.2)
          (k0_pay6 (iblk m c 8 t)) (iblk m c 9 t) := by
  by_cases h0 : t.val % 16 = 0
  · rw [outsAt0_A m c t h0]
    dsimp only
    rw [out0_A_10_eq, sout0_A_0_eq, sout0_A_1_eq]
  · rw [outsAt0_B m c t h0]
    dsimp only
    rw [out0_B_10_eq]

/-- The output tile's entry `(r, o)` at point `t` is the attended row `(t % 16)·256 + r` of batch element `t / 16`. -/
theorem tile_at (c : Dev nD) (t : Fin cfg0.N) (r : Fin 256) (o : Fin 16) :
    (outsAt0 m c t.val t.isLt).1 (ix3 (0 : Fin 1) r o)
      = rowHead m c (⟨t.val / 16, hb t⟩ : Fin 4) (⟨t.val % 16 * 256 + r.val, hs t r⟩ : Fin 4096) o := by
  rw [out_at]
  refine (Cert.KernelIdeal.Payload.out_apply _ _ _ _ _ _ _ r o).trans ?_
  unfold rowHead Cert.AttnSpec.head
  simp only [iblk0_apply, iblk2_apply, iblk3_apply, iblk8_apply, iblk9_apply, keys_at, values_at]

/-! ## From the tiles to the array -/

/-- The result window's index map over the grid. -/
theorem idx_out : ∀ t : Fin cfg0.N, win0_10.index t (0 : Fin 3) = t.val / 16 ∧ win0_10.index t (1 : Fin 3) = t.val % 16
    ∧ win0_10.index t (2 : Fin 3) = 0 :=
  (by decide +kernel : ∀ t : Fin grid0.N, win0_10.index t (0 : Fin 3) = t.val / 16 ∧ win0_10.index t (1 : Fin 3) = t.val % 16
    ∧ win0_10.index t (2 : Fin 3) = 0)

/-- What point `t` writes back is tile `t` of `G`. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  funext y
  obtain ⟨u, r, o, rfl⟩ : ∃ (u : Fin 1) (r : Fin 256) (o : Fin 16), y = ix3 u r o := ⟨y 0, y 1, y 2, eq_ix3 y⟩
  obtain rfl : u = 0 := Subsingleton.elim _ _
  show (outsAt0 m c t.val t.isLt).1 (ix3 (0 : Fin 1) r o) = G m c (((cfg0.win 10).blk t).view.emb (ix3 (0 : Fin 1) r o))
  rw [oblk_emb, tile_at, G_ix3]

/-- An index of the result array is in point `t`'s tile iff each coordinate is in the tile's range on its axis. -/
theorem mem_blk (t : Fin cfg0.N) (i : S4x4096x16.Idx) :
    i ∈ ((cfg0.win 10).blk t).view.set ↔ ∀ a : Fin 3, win0_10.index t a * S1x256x16.size a ≤ (i a).val ∧ (i a).val < win0_10.index t a * S1x256x16.size a + S1x256x16.size a := by
  show i ∈ ((View.whole main_v4).slice (win0_10.rect t)).set ↔ _
  rw [View.set_slice_whole, Rect.mem_set_unit]
  exact Iff.rfl

/-- Every index of the result array lies in some point's tile. -/
theorem cover (i : S4x4096x16.Idx) : ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 16 := (i 2).isLt
  have ht : (i 0).val * 16 + (i 1).val / 256 < cfg0.N := by rw [show cfg0.N = 64 from N_0]; omega
  refine ⟨⟨(i 0).val * 16 + (i 1).val / 256, ht⟩, flush0_10 _, ?_⟩
  rw [mem_blk]
  obtain ⟨e0, e1, e2⟩ := idx_out ⟨(i 0).val * 16 + (i 1).val / 256, ht⟩
  intro a
  match a with
  | ⟨0, _⟩ => show win0_10.index _ (0 : Fin 3) * 1 ≤ (i 0).val ∧ (i 0).val < win0_10.index _ (0 : Fin 3) * 1 + 1; rw [e0]; dsimp only; omega
  | ⟨1, _⟩ => show win0_10.index _ (1 : Fin 3) * 256 ≤ (i 1).val ∧ (i 1).val < win0_10.index _ (1 : Fin 3) * 256 + 256; rw [e1]; dsimp only; omega
  | ⟨2, _⟩ => show win0_10.index _ (2 : Fin 3) * 16 ≤ (i 2).val ∧ (i 2).val < win0_10.index _ (2 : Fin 3) * 16 + 16; rw [e2]; omega

/-- The result array after the run is `G` of the arguments. -/
theorem final (c : Dev nD) : (dats m 0 c).arrAt 10 cfg0.N = G m c :=
  (dats m 0 c).arrAt_eq_of_cover 10 (G m c) (fun t _ => flushed_eq m c t) (cover)

/-- The run with the result array named. -/
theorem run : θ_run defs (onTc (τ := τ) (main (F := Ideal))) ⟨m, fun _ => 0, ρ⟩ (fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final m c), (h c).2⟩) (run_result (F := Ideal) m ρ)

end Cert.KernelIdeal.HandValue

end
-- ==== Proof.RefRead.lean ====
/-
  The reference program's result read at one entry, on the extended reals.

  The reference computes, stage by stage: the three linear projections of every row (queries, keys, values); the
  scaled inner products of a query row with every key row; the maximum of that row of scores (a fold of max from the
  word for −∞, then one more max with −∞, which changes nothing); the exponentials of the shifted scores and their
  sum; the quotient times the scaling word; the weight-weighted sum of the value rows; and the output projection plus
  its bias. Each stage, read at an entry, is the corresponding function of the specification.
-/
import proofs.«167545_j61692910240526_1_alg».proof.Proof.Gen.ReferenceIdeal.Read
import proofs.«167545_j61692910240526_1_alg».proof.Proof.AttnSpec
import proofs.«167545_j61692910240526_1_alg».proof.Proof.LibAxisReads
import Idealize.ShloMosaic.Lib.ValueIdx
import Idealize.ShloMosaic.PureOps.Ideal
import Idealize.ShloMosaic.PureOps.Ideal.Laws

noncomputable section

open scoped BigOperators

namespace Cert.ReferenceIdeal.RefValue

open Idealize.ShloMosaic Idealize.ShloMosaic.ValueIdx Idealize.ShloMosaic.TcCoe Cert.ReferenceIdeal Cert.ReferenceIdeal.Read

/-! ## The arrays as functions of their coordinates -/

variable (x0 : FVec Ideal S4x4096x256 .f32) (x1 : FVec Ideal S256x256 .f32) (x2 : FVec Ideal S256 .f32)
  (x3 : FVec Ideal S256x256 .f32) (x4 : FVec Ideal S256 .f32) (x5 : FVec Ideal S256x256 .f32) (x6 : FVec Ideal S256 .f32)
  (x7 : FVec Ideal S16x256 .f32) (x8 : FVec Ideal S16 .f32)

/-- A weight matrix as a function of (output entry, input entry). -/
abbrev mat {n k : Nat} (w : FVec Ideal (⟨2, ![n, k]⟩ : Shape) .f32) : Fin n → Fin k → EReal := fun o e => w (ix2 o e)
/-- A bias as a function of its entry. -/
abbrev vec {n : Nat} (v : FVec Ideal (⟨1, ![n]⟩ : Shape) .f32) : Fin n → EReal := fun o => v (ix1 o)
/-- Row `s` of batch element `b`. -/
abbrev row (b : Fin 4) (s : Fin 4096) : Fin 256 → EReal := fun e => x0 (ix3 b s e)

/-! ## The three projections -/

/-- The query projection at (b, s, j). -/
theorem q_apply (b : Fin 4) (s : Fin 4096) (j : Fin 256) :
    val_main_v3 (F := Ideal) x0 x1 x2 (ix3 b s j) = Cert.AttnSpec.lin (mat x1) (vec x2) (row x0 b s) j := by
  have el : ∀ k : Fin 256, lidx_main_v0 (ix3 b s j) k = ix3 b s k := fun k =>
    funext fun a => by match a with | ⟨0, _⟩ => rfl | ⟨1, _⟩ => rfl | ⟨2, _⟩ => rfl
  have er : ∀ k : Fin 256, ridx_main_v0 (ix3 b s j) k = ix2 j k := fun k =>
    funext fun a => by match a with | ⟨0, _⟩ => rfl | ⟨1, _⟩ => rfl
  have eb : idx_main_v1 (idx_main_v2 (ix3 b s j)) = ix1 j :=
    funext fun a => by match a with | ⟨0, _⟩ => rfl
  rw [val_main_v3_apply, val_main_v0_apply, val_main_v2_apply, val_main_v1_apply, eb]
  simp only [el, er, Ideal.addf_def]
  rfl

/-- The key projection at (b, k, j). -/
theorem k_apply (b : Fin 4) (k : Fin 4096) (j : Fin 256) :
    val_main_v7 (F := Ideal) x0 x3 x4 (ix3 b k j) = Cert.AttnSpec.lin (mat x3) (vec x4) (row x0 b k) j := by
  have el : ∀ e : Fin 256, lidx_main_v4 (ix3 b k j) e = ix3 b k e := fun e =>
    funext fun a => by match a with | ⟨0, _⟩ => rfl | ⟨1, _⟩ => rfl | ⟨2, _⟩ => rfl
  have er : ∀ e : Fin 256, ridx_main_v4 (ix3 b k j) e = ix2 j e := fun e =>
    funext fun a => by match a with | ⟨0, _⟩ => rfl | ⟨1, _⟩ => rfl
  have eb : idx_main_v5 (idx_main_v6 (ix3 b k j)) = ix1 j :=
    funext fun a => by match a with | ⟨0, _⟩ => rfl
  rw [val_main_v7_apply, val_main_v4_apply, val_main_v6_apply, val_main_v5_apply, eb]
  simp only [el, er, Ideal.addf_def]
  rfl

/-- The value projection at (b, k, j). -/
theorem v_apply (b : Fin 4) (k : Fin 4096) (j : Fin 256) :
    val_main_v11 (F := Ideal) x0 x5 x6 (ix3 b k j) = Cert.AttnSpec.lin (mat x5) (vec x6) (row x0 b k) j := by
  have el : ∀ e : Fin 256, lidx_main_v8 (ix3 b k j) e = ix3 b k e := fun e =>
    funext fun a => by match a with | ⟨0, _⟩ => rfl | ⟨1, _⟩ => rfl | ⟨2, _⟩ => rfl
  have er : ∀ e : Fin 256, ridx_main_v8 (ix3 b k j) e = ix2 j e := fun e =>
    funext fun a => by match a with | ⟨0, _⟩ => rfl | ⟨1, _⟩ => rfl
  have eb : idx_main_v9 (idx_main_v10 (ix3 b k j)) = ix1 j :=
    funext fun a => by match a with | ⟨0, _⟩ => rfl
  rw [val_main_v11_apply, val_main_v8_apply, val_main_v10_apply, val_main_v9_apply, eb]
  simp only [el, er, Ideal.addf_def]
  rfl

/-! ## The scores -/

/-- The scores of query row `s` of batch element `b`, as the specification's function of the key index. -/
abbrev sc (b : Fin 4) (s : Fin 4096) : Fin 4096 → EReal :=
  Cert.AttnSpec.scores (Cert.AttnSpec.lin (mat x1) (vec x2) (row x0 b s))
    (fun k => Cert.AttnSpec.lin (mat x3) (vec x4) (row x0 b k))

/-- The scaled scores at (b, s, k). -/
theorem scores_apply (b : Fin 4) (s k : Fin 4096) :
    val_main_v14 (F := Ideal) x0 x1 x2 x3 x4 (ix3 b s k) = sc x0 x1 x2 x3 x4 b s k := by
  have el : ∀ e : Fin 256, lidx_main_v12 (ix3 b s k) e = ix3 b s e := fun e =>
    funext fun a => by match a with | ⟨0, _⟩ => rfl | ⟨1, _⟩ => rfl | ⟨2, _⟩ => rfl
  have er : ∀ e : Fin 256, ridx_main_v12 (ix3 b s k) e = ix3 b k e := fun e =>
    funext fun a => by match a with | ⟨0, _⟩ => rfl | ⟨1, _⟩ => rfl | ⟨2, _⟩ => rfl
  rw [val_main_v14_apply, val_main_v12_apply, val_main_v13_apply, val_main_cst_apply]
  simp only [el, er, q_apply, k_apply, Ideal.mulf_def, Ideal.ofBits_def]
  rfl

/-! ## The maximum of a row of scores -/

/-- The host's maximum over the keys at (b, s): the fold of max from −∞ over the scores of the row. -/
theorem reduceMax_apply (b : Fin 4) (s : Fin 4096) :
    val_main_v15 (F := Ideal) x0 x1 x2 x3 x4 (ix2 b s) = Cert.AttnSpec.rowMax (sc x0 x1 x2 x3 x4 b s) := by
  unfold val_main_v15
  refine (Cert.AxisReads.hostMax3_last_apply (val_main_v14 (F := Ideal) x0 x1 x2 x3 x4) (val_main_cst_0 (F := Ideal))
    Facts₀.reducesTo_S4x4096x4096_S4x4096_d2 Facts₀.h_S_ b s).trans ?_
  rw [val_main_cst_0_apply]
  simp only [scores_apply, Ideal.ofBits_def]
  rfl

/-- One more maximum with −∞ changes nothing: a fold of max from −∞ is at least −∞. -/
theorem max_apply (b : Fin 4) (s : Fin 4096) :
    val_main_v17 (F := Ideal) x0 x1 x2 x3 x4 (ix2 b s) = Cert.AttnSpec.rowMax (sc x0 x1 x2 x3 x4 b s) := by
  rw [val_main_v17_apply, val_main_v16_apply, val_main_cst_1_apply, reduceMax_apply]
  simp only [Ideal.maximumf_def, Ideal.ofBits_def]
  exact max_eq_right ((Finset.le_fold_max _).mpr (Or.inl le_rfl))

/-! ## The exponentials, their sum, and the weights -/

/-- The exponential of the shifted score at (b, s, k). -/
theorem exp_apply (b : Fin 4) (s k : Fin 4096) :
    val_main_v21 (F := Ideal) x0 x1 x2 x3 x4 (ix3 b s k)
      = Ideal.exp (sc x0 x1 x2 x3 x4 b s k - Cert.AttnSpec.rowMax (sc x0 x1 x2 x3 x4 b s)) := by
  have e19 : idx_main_v18 (idx_main_v19 (ix3 b s k)) = ix2 b s :=
    funext fun a => by match a with | ⟨0, _⟩ => rfl | ⟨1, _⟩ => rfl
  rw [val_main_v21_apply, val_main_v20_apply, val_main_v19_apply, val_main_v18_apply, e19, scores_apply, max_apply]
  simp only [Ideal.hostUnary_exp_def, Ideal.subf_def]

/-- The sum of the exponentials at (b, s): the initial value is the zero word. -/
theorem sum_apply (b : Fin 4) (s : Fin 4096) :
    val_main_v22 (F := Ideal) x0 x1 x2 x3 x4 (ix2 b s)
      = ∑ k : Fin 4096, Ideal.exp (sc x0 x1 x2 x3 x4 b s k - Cert.AttnSpec.rowMax (sc x0 x1 x2 x3 x4 b s)) := by
  have e : ∀ k : Fin 4096, idx_main_v22 (ix2 b s) k = ix3 b s k := fun k =>
    funext fun a => by match a with | ⟨0, _⟩ => rfl | ⟨1, _⟩ => rfl | ⟨2, _⟩ => rfl
  rw [val_main_v22_apply, val_main_cst_2_apply]
  simp only [e, exp_apply, Ideal.ofBits_def, Ideal.ofBits_zero_f32, zero_add]

/-- The attention weight at (b, s, k). -/
theorem weights_apply (b : Fin 4) (s k : Fin 4096) :
    val_main_v27 (F := Ideal) x0 x1 x2 x3 x4 (ix3 b s k) = Cert.AttnSpec.weights (sc x0 x1 x2 x3 x4 b s) k := by
  have e24 : idx_main_v23 (idx_main_v24 (ix3 b s k)) = ix2 b s :=
    funext fun a => by match a with | ⟨0, _⟩ => rfl | ⟨1, _⟩ => rfl
  rw [val_main_v27_apply, val_main_v25_apply, val_main_v24_apply, val_main_v23_apply, e24, exp_apply, sum_apply,
    val_main_v26_apply, val_main_cst_3_apply]
  simp only [Ideal.mulf_def, Ideal.hostDivf_def, Ideal.ofBits_def]
  rfl

/-! ## The mixed row and the output projection -/

/-- The weight-weighted sum of the value rows at (b, s, e). -/
theorem mix_apply (b : Fin 4) (s : Fin 4096) (e : Fin 256) :
    val_main_v28 (F := Ideal) x0 x1 x2 x3 x4 x5 x6 (ix3 b s e)
      = Cert.AttnSpec.mix (Cert.AttnSpec.weights (sc x0 x1 x2 x3 x4 b s))
          (fun k => Cert.AttnSpec.lin (mat x5) (vec x6) (row x0 b k)) e := by
  have el : ∀ k : Fin 4096, lidx_main_v28 (ix3 b s e) k = ix3 b s k := fun k =>
    funext fun a => by match a with | ⟨0, _⟩ => rfl | ⟨1, _⟩ => rfl | ⟨2, _⟩ => rfl
  have er : ∀ k : Fin 4096, ridx_main_v28 (ix3 b s e) k = ix3 b k e := fun k =>
    funext fun a => by match a with | ⟨0, _⟩ => rfl | ⟨1, _⟩ => rfl | ⟨2, _⟩ => rfl
  rw [val_main_v28_apply]
  simp only [el, er, weights_apply, v_apply]
  rfl

/-- The result at (b, s, o): the mixed row projected by the output weights, plus the output bias. -/
theorem out_apply (b : Fin 4) (s : Fin 4096) (o : Fin 16) :
    val_main_v32 (F := Ideal) x0 x1 x2 x3 x4 x5 x6 x7 x8 (ix3 b s o)
      = Cert.AttnSpec.head (fun k e => x0 (ix3 b k e)) (mat x1) (mat x3) (mat x5) (vec x2) (vec x4) (vec x6)
          (mat x7) (vec x8) (row x0 b s) o := by
  have el : ∀ e : Fin 256, lidx_main_v29 (ix3 b s o) e = ix3 b s e := fun e =>
    funext fun a => by match a with | ⟨0, _⟩ => rfl | ⟨1, _⟩ => rfl | ⟨2, _⟩ => rfl
  have er : ∀ e : Fin 256, ridx_main_v29 (ix3 b s o) e = ix2 o e := fun e =>
    funext fun a => by match a with | ⟨0, _⟩ => rfl | ⟨1, _⟩ => rfl
  have eb : idx_main_v30 (idx_main_v31 (ix3 b s o)) = ix1 o :=
    funext fun a => by match a with | ⟨0, _⟩ => rfl
  rw [val_main_v32_apply, val_main_v29_apply, val_main_v31_apply, val_main_v30_apply, eb]
  simp only [el, er, mix_apply, Ideal.addf_def]
  rfl

/-! ## The run's result at an entry -/

/-- The reference's result at (b, s, o) is the specification's attended and projected row of the query row (b, s). -/
theorem res_out0_apply (m : (ℓ : Loc nD τ sig) → Buf (Elt Ideal) ℓ) (c : Dev nD) (b : Fin 4) (s : Fin 4096) (o : Fin 16) :
    Cert.ReferenceIdeal.Value.res_out0 (F := Ideal) m c (ix3 b s o)
      = Cert.AttnSpec.head
          (fun k e => m ((c.tc : Thread nD τ).loc main_arg0) (ix3 b k e))
          (fun o e => m ((c.tc : Thread nD τ).loc main_arg1) (ix2 o e))
          (fun o e => m ((c.tc : Thread nD τ).loc main_arg3) (ix2 o e))
          (fun o e => m ((c.tc : Thread nD τ).loc main_arg5) (ix2 o e))
          (fun o => m ((c.tc : Thread nD τ).loc main_arg2) (ix1 o))
          (fun o => m ((c.tc : Thread nD τ).loc main_arg4) (ix1 o))
          (fun o => m ((c.tc : Thread nD τ).loc main_arg6) (ix1 o))
          (fun o e => m ((c.tc : Thread nD τ).loc main_arg7) (ix2 o e))
          (fun o => m ((c.tc : Thread nD τ).loc main_arg8) (ix1 o))
          (fun e => m ((c.tc : Thread nD τ).loc main_arg0) (ix3 b s e)) o := by
  show Cert.ReferenceIdeal.Value.res_main_v32 (F := Ideal) m c (ix3 b s o) = _
  rw [val_main_v32_eq]
  exact out_apply _ _ _ _ _ _ _ _ _ b s o

end Cert.ReferenceIdeal.RefValue

end
-- ==== Proof.lean ====
/-
  Single-head attention with an output projection: a Pallas kernel that tiles the queries and caches each batch
  element's keys and values in scratch, against the plain jnp reference.

  On the extended reals both programs compute, for batch element `b`, row `s` and class `o`, the same number: project
  the row to a query and every row of the batch element to a key and a value; score the query against every key and scale
  by 1/16; take the exponentials of the scores shifted by their maximum, divide by their sum and scale by 1/16 again;
  mix the values with those weights; project by the output weights and add the bias (`Cert.AttnSpec.head`). The kernel
  computes it tile by tile — 256 query rows per grid point, the keys and values of the batch element computed at the
  batch element's first tile and read from scratch at its other fifteen — the reference for all rows at once with batched
  products; a change of float format is the identity here and a matrix product into a zero accumulator is the plain
  contraction on both sides, so the two agree entry by entry with no appeal to finiteness.
  The frames: the reference is a straight line of host operations; the kernel's program is four reshapes and one
  pipelined region whose first two input windows read the same array, each holding half of it.
-/
import proofs.«167545_j61692910240526_1_alg».proof.Defs
import proofs.«167545_j61692910240526_1_alg».proof.Proof.Gen.Kernel
import proofs.«167545_j61692910240526_1_alg».proof.Proof.Gen.KernelIdeal
import proofs.«167545_j61692910240526_1_alg».proof.Proof.Gen.ReferenceIdeal
import proofs.«167545_j61692910240526_1_alg».proof.Proof.Gen.Pre_finite_inputs
import proofs.«167545_j61692910240526_1_alg».proof.Proof.Gen.ReferenceIdeal.Run
import proofs.«167545_j61692910240526_1_alg».proof.Proof.Gen.ReferenceIdeal.Read
import proofs.«167545_j61692910240526_1_alg».proof.Proof.KB_Frame
import proofs.«167545_j61692910240526_1_alg».proof.Proof.KI_Value
import proofs.«167545_j61692910240526_1_alg».proof.Proof.RefRead

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at the attended, projected rows of the arguments. -/
theorem algebraic : Cert.algebraic_KernelIdeal_ReferenceIdeal := by
  intro m ρ m' ρ' _ hagree
  refine ⟨fun c => Cert.KernelIdeal.HandValue.G m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, s, o, rfl⟩ : ∃ (b : Fin 4) (s : Fin 4096) (o : Fin 16), i = ix3 b s o := ⟨i 0, i 1, i 2, eq_ix3 i⟩
  refine (Cert.ReferenceIdeal.RefValue.res_out0_apply m' c b s o).trans ?_
  obtain ⟨h0, h1, h2, h3, h4, h5, h6, h7, h8⟩ := hagree c
  rw [h0, h1, h2, h3, h4, h5, h6, h7, h8]
  exact (Cert.KernelIdeal.HandValue.G_ix3 m c b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
